-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x41024 : Shape := ⟨2, ![2048, 41024]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S_ : Shape := ⟨0, ![]⟩

class Facts : Prop where
  bcast_S_S2048x41024 : S_.BroadcastsInDim S2048x41024 (![] : Fin 0 → Fin S2048x41024.rank)
  reducesTo_S2048x41024_S_d0_1 : S2048x41024.ReducesTo [0, 1] S_
  h_S_ : 0 < S_.numel
  bcast_S_S256x41024 : S_.BroadcastsInDim S256x41024 (![] : Fin 0 → Fin S256x41024.rank)
  reducesTo_S256x41024_S_d0_1 : S256x41024.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S32x512 .f32) (main_arg5 : FVec F S32 .f32) (main_arg6 : FVec F S32x32 .f32) (main_arg7 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_v33

def fn {F : FTy → Type} [FloatOps F] (main_arg0 : FVec F S2048x41024 .f32) (main_arg1 : FVec F S2048x41024 .f32) (main_arg2 : FVec F S256x41024 .f32) (main_arg3 : FVec F S256 .f32) (main_arg4 : FVec F S32x512 .f32) (main_arg5 : FVec F S32 .f32) (main_arg6 : FVec F S32x32 .f32) (main_arg7 : FVec F S32 .f32) : IVec S_ 1 :=
  let main_v0 : FVec F S2048x41024 .f32 := Host.absf main_arg0
  let main_cst : FVec F S_ .f32 := constant S_ .f32 0x7F800000#32
  let main_v1 : FVec F S2048x41024 .f32 := broadcastInDim S2048x41024 ![] bcast_S_S2048x41024 main_cst
  let main_v2 : IVec S2048x41024 1 := cmpf .olt main_v0 main_v1
  let main_c : IVec S_ 1 := constantI S_ 1 1#1
  let main_v3 : IVec S_ 1 := (fun x v => Host.reduce IntOp.andi x v reducesTo_S2048x41024_S_d0_1 h_S_) main_v2 main_c
  let main_v4 : FVec F S2048x41024 .f32 := Host.absf main_arg1
  let main_cst_0 : FVec F S_ .f32 := constant S_ .f32 0x7F800000#32
  let main_v5 : FVec F S2048x41024 .f32 := broadcastInDim S2048x41024 ![] bcast_S_S2048x41024 main_cst_0
  let main_v6 : IVec S2048x41024 1 := cmpf .olt main_v4 main_v5
  let main_c_1 : IVec S_ 1 := constantI S_ 1 1#1
  let main_v7 : IVec S_ 1 := (fun x v => Host.reduce IntOp.andi x v reducesTo_S2048x41024_S_d0_1 h_S_) main_v6 main_c_1
  let main_v8 : IVec S_ 1 := andi main_v3 main_v7
  let main_v9 : FVec F S256x41024 .f32 := Host.absf main_arg2
  let main_cst_2 : FVec F S_ .f32 := constant S_ .f32 0x7F800000#32
  let main_v10 : FVec F S256x41024 .f32 := broadcastInDim S256x41024 ![] bcast_S_S256x41024 main_cst_2
  let main_v11 : IVec S256x41024 1 := cmpf .olt main_v9 main_v10
  let main_c_3 : IVec S_ 1 := constantI S_ 1 1#1
  let main_v12 : IVec S_ 1 := (fun x v => Host.reduce IntOp.andi x v reducesTo_S256x41024_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S2048x41024 : Shape := ⟨2, ![2048, 41024]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S_ : Shape := ⟨0, ![]⟩
abbrev S2048x41216 : Shape := ⟨2, ![2048, 41216]⟩
abbrev S256x41216 : Shape := ⟨2, ![256, 41216]⟩
abbrev S1x256 : Shape := ⟨2, ![1, 256]⟩
abbrev S1x32 : Shape := ⟨2, ![1, 32]⟩
abbrev S2048x32 : Shape := ⟨2, ![2048, 32]⟩
abbrev S1024x896 : Shape := ⟨2, ![1024, 896]⟩
abbrev S256x896 : Shape := ⟨2, ![256, 896]⟩
abbrev S1024x32 : Shape := ⟨2, ![1024, 32]⟩
abbrev S1024x256 : Shape := ⟨2, ![1024, 256]⟩
abbrev S1024x512 : Shape := ⟨2, ![1024, 512]⟩

abbrev nBuf : Space → Nat
  | .hbm => 21
  | .vmem => 15
  | .smem => 0
  | _ => 0

abbrev bufTy : (tb : Table) → Fin (tcTables nBuf tb) → BufTy
  | .hbm, ⟨0, _⟩ => ⟨S2048x41024, .f32⟩
  | .hbm, ⟨1, _⟩ => ⟨S2048x41024, .f32⟩
  | .hbm, ⟨2, _⟩ => ⟨S256x41024, .f32⟩
  | .hbm, ⟨3, _⟩ => ⟨S256, .f32⟩
  | .hbm, ⟨4, _⟩ => ⟨S32x512, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S_, .i32⟩
  | .hbm, ⟨9, _⟩ => ⟨S_, .f32⟩
  | .hbm, ⟨10, _⟩ => ⟨S2048x41216, .f32⟩
  | .hbm, ⟨11, _⟩ => ⟨S_, .i32⟩
  | .hbm, ⟨12, _⟩ => ⟨S_, .f32⟩
  | .hbm, ⟨13, _⟩ => ⟨S2048x41216, .f32⟩
  | .hbm, ⟨14, _⟩ => ⟨S_, .i32⟩
  | .hbm, ⟨15, _⟩ => ⟨S_, .f32⟩
  | .hbm, ⟨16, _⟩ => ⟨S256x41216, .f32⟩
  | .hbm, ⟨17, _⟩ => ⟨S1x256, .f32⟩
  | .hbm, ⟨18, _⟩ => ⟨S1x32, .f32⟩
  | .hbm, ⟨19, _⟩ => ⟨S1x32, .f32⟩
  | .hbm, ⟨20, _⟩ => ⟨S2048x32, .f32⟩
  | .local _ .vmem, ⟨0, _⟩ => ⟨S1024x896, .f32⟩
  | .local _ .vmem, ⟨1, _⟩ => ⟨S1024x896, .f32⟩
  | .local _ .vmem, ⟨2, _⟩ => ⟨S1024x896, .f32⟩
  | .local _ .vmem, ⟨3, _⟩ => ⟨S1024x896, .f32⟩
  | .local _ .vmem, ⟨4, _⟩ => ⟨S256x896, .f32⟩
  | .local _ .vmem, ⟨5, _⟩ => ⟨S256x896, .f32⟩
  | .local _ .vmem, ⟨6, _⟩ => ⟨S1x256, .f32⟩
  | .local _ .vmem, ⟨7, _⟩ => ⟨S32x512, .f32⟩
  | .local _ .vmem, ⟨8, _⟩ => ⟨S1x32, .f32⟩
  | .local _ .vmem, ⟨9, _⟩ => ⟨S32x32, .f32⟩
  | .local _ .vmem, ⟨10, _⟩ => ⟨S1x32, .f32⟩
  | .local _ .vmem, ⟨11, _⟩ => ⟨S1024x32, .f32⟩
  | .local _ .vmem, ⟨12, _⟩ => ⟨S1024x32, .f32⟩
  | .local _ .vmem, ⟨13, _⟩ => ⟨S1024x256, .f32⟩
  | .local _ .vmem, ⟨14, _⟩ => ⟨S1024x256, .f32⟩
  | _, _ => ⟨S2048x41024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_c_1 : Ref sig .tc := ⟨.hbm, 14, rfl⟩
abbrev main_call2_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 46], ![false, false]⟩

def k0_cond2 (i : grid0.Coords) : BitVec 1 :=
  let arg1 : BitVec 32 := BitVec.ofNat 32 (i 1).val
  let c45_i32 : BitVec 32 := 45#32
  let v24 : BitVec 1 := Scalar.cmpi .eq arg1 c45_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  pads_S2048x41024_S2048x41216_000_01920 : S2048x41024.Pads (![0, 0] : Fin 2 → Nat) ![0, 192] ![0, 0] S2048x41216
  h_S_ : 0 < S_.numel
  pads_S256x41024_S256x41216_000_01920 : S256x41024.Pads (![0, 0] : Fin 2 → Nat) ![0, 192] ![0, 0] S256x41216
  shapeCasts_S256_S1x256 : S256.ShapeCasts S1x256
  shapeCasts_S32_S1x32 : S32.ShapeCasts S1x32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x896_S1024x896_0_0 : ∀ a, (![0, 0] : Fin 2 → Nat) a + S1024x896.size a ≤ S1024x896.size a
  h_S1024x896 : 0 < S1024x896.numel
  shapeCasts_S1024x896_S1024x896 : S1024x896.ShapeCasts S1024x896
  bitsLt_bf16_f32 : FTy.bits .bf16 < FTy.bits .f32
  inb_S256x896_S256x896_0_0 : ∀ a, (![0, 0] : Fin 2 → Nat) a + S256x896.size a ≤ S256x896.size a
  h_S256x896 : 0 < S256x896.numel
  shapeCasts_S256x896_S256x896 : S256x896.ShapeCasts S256x896
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  concatenates_S1024x256_S1024x256_S1024x512_d1 : Shape.Concatenates [S1024x256, S1024x256] S1024x512 1
  inb_S32x512_S32x512_0_0 : ∀ a, (![0, 0] : Fin 2 → Nat) a + S32x512.size a ≤ S32x512.size a
  h_S32x512 : 0 < S32x512.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  inb_S1024x32_S1024x32_0_0 : ∀ a, (![0, 0] : Fin 2 → Nat) a + S1024x32.size a ≤ S1024x32.size a
  h_S1024x32 : 0 < S1024x32.numel
  dot_S1024x896_S256x896_S1024x256_1_1_0_0_n_n_wf : DotDims.WF S1024x896 S256x896 S1024x256 [1] [1] [0] [0] [] []
  dot_S1024x512_S32x512_S1024x32_1_1_0_0_n_n_wf : DotDims.WF S1024x512 S32x512 S1024x32 [1] [1] [0] [0] [] []
  dot_S1024x32_S32x32_S1024x32_1_1_0_0_n_n_wf : DotDims.WF S1024x32 S32x32 S1024x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x896.size a ≤ S2048x41216.size a
  hwx0_0 : ∀ i : grid0.Coords, EltTy.bits .f32 = 32 ∨ (Rect.block (s := S2048x41216) S1024x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x896.size a ≤ S2048x41216.size a
  hwx0_1 : ∀ i : grid0.Coords, EltTy.bits .f32 = 32 ∨ (Rect.block (s := S2048x41216) S1024x896.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x896.size a ≤ S256x41216.size a
  hwx0_2 : ∀ i : grid0.Coords, EltTy.bits .f32 = 32 ∨ (Rect.block (s := S256x41216) S256x896.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x512.size a
  hwx0_4 : ∀ i : grid0.Coords, EltTy.bits .f32 = 32 ∨ (Rect.block (s := S32x512) S32x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x32.size a ≤ S2048x32.size a
  hwx0_8 : ∀ i : grid0.Coords, EltTy.bits .f32 = 32 ∨ (Rect.block (s := S2048x32) S1024x32.size (cc0_transform_8 i) (hinb0_8 i)).WholeWords (EltTy.packing .f32)

variable [Facts₀]

def dot_S1024x896_S256x896_S1024x256_1_1_0_0_n_n : DotDims S1024x896 S256x896 S1024x256 where
  lhsContracting := [1]
  rhsContracting := [1]
  lhsNonContracting := [0]
  rhsNonContracting := [0]
  lhsBatch := []
  rhsBatch := []
  wf := dot_S1024x896_S256x896_S1024x256_1_1_0_0_n_n_wf
def dot_S1024x512_S32x512_S1024x32_1_1_0_0_n_n : DotDims S1024x512 S32x512 S1024x32 where
  lhsContracting := [1]
  rhsContracting := [1]
  lhsNonContracting := [0]
  rhsNonContracting := [0]
  lhsBatch := []
  rhsBatch := []
  wf := dot_S1024x512_S32x512_S1024x32_1_1_0_0_n_n_wf
def dot_S1024x32_S32x32_S1024x32_1_1_0_0_n_n : DotDims S1024x32 S32x32 S1024x32 where
  lhsContracting := [1]
  rhsContracting := [1]
  lhsNonContracting := [0]
  rhsNonContracting := [0]
  lhsBatch := []
  rhsBatch := []
  wf := dot_S1024x32_S32x32_S1024x32_1_1_0_0_n_n_wf

abbrev win0_0 : Pipeline.Window sig grid0 :=
  Pipeline.Window.ofSpec (Memref.whole main_v0) S1024x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x896.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x896.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1024x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S2048x41024 : Shape := ⟨2, ![2048, 41024]⟩
abbrev S256x41024 : Shape := ⟨2, ![256, 41024]⟩
abbrev S256 : Shape := ⟨1, ![256]⟩
abbrev S32x512 : Shape := ⟨2, ![32, 512]⟩
abbrev S32 : Shape := ⟨1, ![32]⟩
abbrev S32x32 : Shape := ⟨2, ![32, 32]⟩
abbrev S41024x256 : Shape := ⟨2, ![41024, 256]⟩
abbrev S2048x256 : Shape := ⟨2, ![2048, 256]⟩
abbrev S1x256 : Shape := ⟨2, ![1, 256]⟩
abbrev S2048x512 : Shape := ⟨2, ![2048, 512]⟩
abbrev S_ : Shape := ⟨0, ![]⟩
abbrev S512x32 : Shape := ⟨2, ![512, 32]⟩
abbrev S2048x32 : Shape := ⟨2, ![2048, 32]⟩
abbrev S1x32 : Shape := ⟨2, ![1, 32]⟩

abbrev nBuf : Space → Nat
  | .hbm => 53
  | .vmem => 0
  | .smem => 0
  | _ => 0

abbrev bufTy : (tb : Table) → Fin (tcTables nBuf tb) → BufTy
  | .hbm, ⟨0, _⟩ => ⟨S2048x41024, .f32⟩
  | .hbm, ⟨1, _⟩ => ⟨S2048x41024, .f32⟩
  | .hbm, ⟨2, _⟩ => ⟨S256x41024, .f32⟩
  | .hbm, ⟨3, _⟩ => ⟨S256, .f32⟩
  | .hbm, ⟨4, _⟩ => ⟨S32x512, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S41024x256, .f32⟩
  | .hbm, ⟨9, _⟩ => ⟨S2048x256, .f32⟩
  | .hbm, ⟨10, _⟩ => ⟨S1x256, .f32⟩
  | .hbm, ⟨11, _⟩ => ⟨S2048x256, .f32⟩
  | .hbm, ⟨12, _⟩ => ⟨S2048x256, .f32⟩
  | .hbm, ⟨13, _⟩ => ⟨S41024x256, .f32⟩
  | .hbm, ⟨14, _⟩ => ⟨S2048x256, .f32⟩
  | .hbm, ⟨15, _⟩ => ⟨S1x256, .f32⟩
  | .hbm, ⟨16, _⟩ => ⟨S2048x256, .f32⟩
  | .hbm, ⟨17, _⟩ => ⟨S2048x256, .f32⟩
  | .hbm, ⟨18, _⟩ => ⟨S2048x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S512x32, .f32⟩
  | .hbm, ⟨28, _⟩ => ⟨S2048x32, .f32⟩
  | .hbm, ⟨29, _⟩ => ⟨S1x32, .f32⟩
  | .hbm, ⟨30, _⟩ => ⟨S2048x32, .f32⟩
  | .hbm, ⟨31, _⟩ => ⟨S2048x32, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2048x32, .f32⟩
  | .hbm, ⟨36, _⟩ => ⟨S2048x32, .f32⟩
  | .hbm, ⟨37, _⟩ => ⟨S_, .f32⟩
  | .hbm, ⟨38, _⟩ => ⟨S2048x32, .f32⟩
  | .hbm, ⟨39, _⟩ => ⟨S2048x32, .f32⟩
  | .hbm, ⟨40, _⟩ => ⟨S32x32, .f32⟩
  | .hbm, ⟨41, _⟩ => ⟨S2048x32, .f32⟩
  | .hbm, ⟨42, _⟩ => ⟨S1x32, .f32⟩
  | .hbm, ⟨43, _⟩ => ⟨S2048x32, .f32⟩
  | .hbm, ⟨44, _⟩ => ⟨S2048x32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048x32, .f32⟩
  | .hbm, ⟨49, _⟩ => ⟨S2048x32, .f32⟩
  | .hbm, ⟨50, _⟩ => ⟨S_, .f32⟩
  | .hbm, ⟨51, _⟩ => ⟨S2048x32, .f32⟩
  | .hbm, ⟨52, _⟩ => ⟨S2048x32, .f32⟩
  | _, _ => ⟨S2048x41024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_cst_4 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v23 : Ref sig .tc := ⟨.hbm, 52, rfl⟩

abbrev nD : Nat := 1
abbrev τ : Topo := Topo.v7x

variable {F : FTy → Type} [FloatOps F]

class Facts₀ : Prop where
  transposes_S256x41024_S41024x256_1_0 : S256x41024.Transposes [1, 0] S41024x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  concatenates_S2048x256_S2048x256_S2048x512_d1 : Shape.Concatenates [S2048x256, S2048x256] S2048x512 1
  bcast_S_S2048x512 : S_.BroadcastsInDim S2048x512 (![] : Fin 0 → Fin S2048x512.rank)
  transposes_S32x512_S512x32_1_0 : S32x512.Transposes [1, 0] S512x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  transposes_S32x32_S32x32_1_0 : S32x32.Transposes [1, 0] S32x32
  dot_S2048x41024_S41024x256_S2048x256_1_0_0_1_n_n_wf : DotDims.WF S2048x41024 S41024x256 S2048x256 [1] [0] [0] [1] [] []
  dot_S2048x512_S512x32_S2048x32_1_0_0_1_n_n_wf : DotDims.WF S2048x512 S512x32 S2048x32 [1] [0] [0] [1] [] []
  dot_S2048x32_S32x32_S2048x32_1_0_0_1_n_n_wf : DotDims.WF S2048x32 S32x32 S2048x32 [1] [0] [0] [1] [] []

variable [Facts₀]

def dot_S2048x41024_S41024x256_S2048x256_1_0_0_1_n_n : DotDims S2048x41024 S41024x256 S2048x256 where
  lhsContracting := [1]
  rhsContracting := [0]
  lhsNonContracting := [0]
  rhsNonContracting := [1]
  lhsBatch := []
  rhsBatch := []
  wf := dot_S2048x41024_S41024x256_S2048x256_1_0_0_1_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf

class Facts : Prop extends Facts₀ where

variable [Facts]
-- ==== Proof.LibBlockSums.lean ====
/-
  Two facts about finite sums over initial segments of the naturals, in any commutative additive
  monoid (no subtraction, no order, no finiteness of the values is involved):

  * `sum_blocks`: summing `a` consecutive blocks of `b` consecutive naturals, block `p` being
    `b·p, …, b·p + b − 1`, is summing the first `a·b` naturals;
  * `sum_pad`: terms that vanish from `n` on may be dropped from a sum over the first `N ≥ n`
    naturals.

  Together they turn a sum accumulated block by block over a zero-padded range into the sum over
  the unpadded range.
-/
import Mathlib.Algebra.BigOperators.Fin
import Mathlib.Algebra.BigOperators.Intervals
import Mathlib.Logic.Equiv.Fin.Basic

open scoped BigOperators

namespace Cert.Lib.BlockSums

/-- A sum over `a` blocks of `b` consecutive naturals is the sum over all `a * b` of them. -/
theorem sum_blocks {M : Type*} [AddCommMonoid M] (a b : ℕ) (f : ℕ → M) :
    ∑ p ∈ Finset.range a, ∑ l : Fin b, f (b * p + l.val) = ∑ k : Fin (a * b), f k.val := by
  rw [← Fin.sum_univ_eq_sum_range (fun p => ∑ l : Fin b, f (b * p + l.val)) a,
    ← Equiv.sum_comp finProdFinEquiv (fun k : Fin (a * b) => f k.val), Fintype.sum_prod_type]
  refine Finset.sum_congr rfl fun p _ => Finset.sum_congr rfl fun l _ => ?_
  show f (b * p.val + l.val) = f (l.val + b * p.val)
  rw [Nat.add_comm]

/-- Terms that vanish from `n` on may be dropped from a sum over the first `N ≥ n` naturals. -/
theorem sum_pad {M : Type*} [AddCommMonoid M] (n N : ℕ) (hnN : n ≤ N) (f : ℕ → M)
    (hz : ∀ k, n ≤ k → k < N → f k = 0) : ∑ k : Fin N, f k.val = ∑ k : Fin n, f k.val := by
  rw [Fin.sum_univ_eq_sum_range f N, Fin.sum_univ_eq_sum_range f n]
  refine (Finset.sum_subset (Finset.range_mono hnN) fun k hk hk' => hz k ?_ ?_).symm
  · simpa using hk'
  · simpa using hk

end Cert.Lib.BlockSums
-- ==== Proof.Spec.lean ====
/-
  The function both programs compute, stated once over the extended reals.

  A row `r` of each of the two input matrices is contracted against every row `j` of the
  first weight matrix (`dotRow`); the two 256-vectors of sums get the first bias added and are
  clipped to the unit interval, then are laid side by side into one 512-vector (`layer0`); two
  further affine maps, each followed by the same clipping, reduce it to 32 and again 32 numbers
  (`layer1`, `layer2`). The clipping is `min hi (max lo z)` with `lo`, `hi` the values of the
  two f32 words for 0 and 1: the words are never evaluated, so the statement does not depend on
  what they denote.

  All the algebra the comparison needs is two facts about finite sums in a commutative additive
  monoid (`Proof/LibBlockSums.lean`): a sum over `a * b` consecutive naturals is the sum over `a`
  blocks of `b`, and terms that vanish past `n` may be dropped from a longer sum. Neither uses
  cancellation or distributivity, so no finiteness of the summands is involved.
-/
import Idealize.ShloMosaic.PureOps.Ideal
import Idealize.ShloMosaic.PureOps.Ideal.Laws
import Idealize.ShloMosaic.Lib.ValueIdx
import proofs.«106080_j74706661146752_1_alg».proof.Proof.LibBlockSums

noncomputable section

open scoped BigOperators

namespace Cert.Spec

open Idealize.ShloMosaic Idealize.ShloMosaic.ValueIdx

/-- The lower clip bound: the extended real the f32 word of `0.0` denotes. -/
abbrev lo : EReal := Ideal.ofBits .f32 0x00000000#32
/-- The upper clip bound: the extended real the f32 word of `1.0` denotes. -/
abbrev hi : EReal := Ideal.ofBits .f32 0x3F800000#32

/-- Clipping: raise to the lower bound, then cap at the upper bound. -/
def clip (z : EReal) : EReal := min hi (max lo z)

/-- The joined first layer of one row: entries below 256 come from the first vector of sums, the
    others from the second, each with the bias added and clipped. -/
def layer0 (s0 s1 b : Fin 256 → EReal) (q : Fin 512) : EReal :=
  if h : q.val < 256 then clip (s0 ⟨q.val, h⟩ + b ⟨q.val, h⟩)
  else clip (s1 ⟨q.val - 256, by have := q.isLt; omega⟩ + b ⟨q.val - 256, by have := q.isLt; omega⟩)

/-- The second layer of one row: entry `j` is the clipped affine image of the joined first layer. -/
def layer1 (s0 s1 b : Fin 256 → EReal) (W1 : Fin 32 → Fin 512 → EReal) (b1 : Fin 32 → EReal) (j : Fin 32) : EReal :=
  clip ((∑ q : Fin 512, layer0 s0 s1 b q * W1 j q) + b1 j)

/-- The third layer of one row: entry `j` is the clipped affine image of the second layer. -/
def layer2 (s0 s1 b : Fin 256 → EReal) (W1 : Fin 32 → Fin 512 → EReal) (b1 : Fin 32 → EReal)
    (W2 : Fin 32 → Fin 32 → EReal) (b2 : Fin 32 → EReal) (j : Fin 32) : EReal :=
  clip ((∑ q : Fin 32, layer1 s0 s1 b W1 b1 q * W2 j q) + b2 j)

/-- Row `r` of `x` against row `j` of `w`: the sum of the 41024 products. -/
def dotRow (x : (⟨2, ![2048, 41024]⟩ : Shape).Idx → EReal) (w : (⟨2, ![256, 41024]⟩ : Shape).Idx → EReal)
    (r : Fin 2048) (j : Fin 256) : EReal :=
  ∑ k : Fin 41024, x (ix2 r k) * w (ix2 j k)

/-- The result array as one function of the eight argument arrays, entry by entry. -/
def G (x0 x1 : (⟨2, ![2048, 41024]⟩ : Shape).Idx → EReal) (w : (⟨2, ![256, 41024]⟩ : Shape).Idx → EReal)
    (b : (⟨1, ![256]⟩ : Shape).Idx → EReal) (W1 : (⟨2, ![32, 512]⟩ : Shape).Idx → EReal)
    (b1 : (⟨1, ![32]⟩ : Shape).Idx → EReal) (W2 : (⟨2, ![32, 32]⟩ : Shape).Idx → EReal)
    (b2 : (⟨1, ![32]⟩ : Shape).Idx → EReal) : (⟨2, ![2048, 32]⟩ : Shape).Idx → EReal :=
  fun i => layer2 (dotRow x0 w (i 0)) (dotRow x1 w (i 0)) (fun j => b (ix1 j)) (fun j q => W1 (ix2 j q))
    (fun j => b1 (ix1 j)) (fun j q => W2 (ix2 j q)) (fun j => b2 (ix1 j)) (i 1)

end Cert.Spec

end
-- ==== Proof.RefSide.lean ====
/-
  The reference's result, read entry by entry, is the specification `Spec.G`.

  Its two large products contract the 41024 columns of an input row with a row of the first
  weight matrix (the transposition of the weights only renames the index); the bias row is
  broadcast down the rows; the two halves are joined side by side and the clipping is applied
  to the joined array, which entry by entry is the clipping of whichever half the column falls
  in. The two small layers repeat the pattern: a contraction against the transposed weights,
  a broadcast bias, the clipping.
-/
import proofs.«106080_j74706661146752_1_alg».proof.Proof.Gen.ReferenceIdeal.Read
import proofs.«106080_j74706661146752_1_alg».proof.Proof.Spec

noncomputable section

open scoped BigOperators

namespace Cert.ReferenceIdeal.RefValue

open Cert.ReferenceIdeal Cert.ReferenceIdeal.Read Idealize.ShloMosaic Idealize.ShloMosaic.ValueIdx Cert.Spec

variable (x0 x1 : (⟨S2048x41024, .f32⟩ : BufTy).Contents (Elt Ideal)) (x2 : (⟨S256x41024, .f32⟩ : BufTy).Contents (Elt Ideal))
  (x3 : (⟨S256, .f32⟩ : BufTy).Contents (Elt Ideal)) (x4 : (⟨S32x512, .f32⟩ : BufTy).Contents (Elt Ideal))
  (x5 : (⟨S32, .f32⟩ : BufTy).Contents (Elt Ideal)) (x6 : (⟨S32x32, .f32⟩ : BufTy).Contents (Elt Ideal))
  (x7 : (⟨S32, .f32⟩ : BufTy).Contents (Elt Ideal))

/-- The first large product at row `r`, column `j`: row `r` of the first input against row `j` of the weights. -/
theorem dot_first (r : Fin 2048) (j : Fin 256) : val_main_v1 (F := Ideal) x0 x2 (ix2 r j) = dotRow x0 x2 r j := by
  rw [val_main_v1_apply]
  unfold dotRow
  refine Finset.sum_congr rfl fun k _ => ?_
  rw [val_main_v0_apply]
  have e1 : lidx_main_v1 (ix2 r j) k = ix2 r k := funext fun a => by match a with | ⟨0, _⟩ => rfl | ⟨1, _⟩ => rfl
  have e2 : idx_main_v0 (ridx_main_v1 (ix2 r j) k) = ix2 j k := funext fun a => by match a with | ⟨0, _⟩ => rfl | ⟨1, _⟩ => rfl
  rw [e1, e2]

/-- The second large product likewise, over the second input. -/
theorem dot_second (r : Fin 2048) (j : Fin 256) : val_main_v6 (F := Ideal) x1 x2 (ix2 r j) = dotRow x1 x2 r j := by
  rw [val_main_v6_apply]
  unfold dotRow
  refine Finset.sum_congr rfl fun k _ => ?_
  rw [val_main_v5_apply]
  have e1 : lidx_main_v6 (ix2 r j) k = ix2 r k := funext fun a => by match a with | ⟨0, _⟩ => rfl | ⟨1, _⟩ => rfl
  have e2 : idx_main_v5 (ridx_main_v6 (ix2 r j) k) = ix2 j k := funext fun a => by match a with | ⟨0, _⟩ => rfl | ⟨1, _⟩ => rfl
  rw [e1, e2]

/-- The first half before clipping: the product plus the bias of its column. -/
theorem half_first (r : Fin 2048) (j : Fin 256) :
    val_main_v4 (F := Ideal) x0 x2 x3 (ix2 r j) = dotRow x0 x2 r j + x3 (ix1 j) := by
  rw [val_main_v4_apply, dot_first, val_main_v3_apply, val_main_v2_apply]
  have e : idx_main_v2 (idx_main_v3 (ix2 r j)) = ix1 j := funext fun a => by match a with | ⟨0, _⟩ => rfl
  rw [e]; rfl

/-- The second half before clipping. -/
theorem half_second (r : Fin 2048) (j : Fin 256) :
    val_main_v9 (F := Ideal) x1 x2 x3 (ix2 r j) = dotRow x1 x2 r j + x3 (ix1 j) := by
  rw [val_main_v9_apply, dot_second, val_main_v8_apply, val_main_v7_apply]
  have e : idx_main_v7 (idx_main_v8 (ix2 r j)) = ix1 j := funext fun a => by match a with | ⟨0, _⟩ => rfl
  rw [e]; rfl

/-- The clipped joined array at row `r`, column `q` is the specification's joined first layer. -/
theorem joined_eq (r : Fin 2048) (q : Fin 512) :
    val_main_v11 (F := Ideal) x0 x1 x2 x3 (ix2 r q)
      = layer0 (dotRow x0 x2 r) (dotRow x1 x2 r) (fun j => x3 (ix1 j)) q := by
  rw [val_main_v11_apply, val_main_call0_v2_apply, val_main_call0_v4_apply, val_main_call0_v3_apply,
    val_main_cst_0_apply, val_main_call0_v1_apply, val_main_call0_v0_apply, val_main_cst_apply]
  unfold layer0
  by_cases h : q.val < 256
  · rw [dif_pos h]
    have e : val_main_v10 (F := Ideal) x0 x1 x2 x3 (ix2 r q) = val_main_v4 (F := Ideal) x0 x2 x3 (ix2 r ⟨q.val, h⟩) := by
      unfold val_main_v10
      exact concatenate_pair_apply_left 1 (val_main_v4 (F := Ideal) x0 x2 x3) (val_main_v9 (F := Ideal) x1 x2 x3)
        Gen.concatenates_S2048x256_S2048x256_S2048x512_d1 (ix2 r q) rfl
        (ix2 r (⟨q.val, h⟩ : Fin 256) : S2048x256.Idx) (fun b => by match b with | ⟨0, _⟩ => rfl | ⟨1, _⟩ => rfl)
    rw [e, half_first]; rfl
  · rw [dif_neg h]
    have hq := q.isLt
    have e : val_main_v10 (F := Ideal) x0 x1 x2 x3 (ix2 r q)
        = val_main_v9 (F := Ideal) x1 x2 x3 (ix2 r ⟨q.val - 256, by omega⟩) := by
      unfold val_main_v10
      exact concatenate_pair_apply_right 1 (val_main_v4 (F := Ideal) x0 x2 x3) (val_main_v9 (F := Ideal) x1 x2 x3)
        Gen.concatenates_S2048x256_S2048x256_S2048x512_d1 (ix2 r q) rfl rfl
        (ix2 r (⟨q.val - 256, by omega⟩ : Fin 256) : S2048x256.Idx)
        (fun b hb => by match b with | ⟨0, _⟩ => rfl | ⟨1, _⟩ => exact absurd rfl hb)
        (by show q.val - 256 + 256 = q.val; omega)
    rw [e, half_second]; rfl

/-- The second layer of the reference at row `r`, column `j`. -/
theorem second_eq (r : Fin 2048) (j : Fin 32) :
    val_main_v17 (F := Ideal) x0 x1 x2 x3 x4 x5 (ix2 r j)
      = layer1 (dotRow x0 x2 r) (dotRow x1 x2 r) (fun j => x3 (ix1 j)) (fun j q => x4 (ix2 j q)) (fun j => x5 (ix1 j)) j := by
  rw [val_main_v17_apply, val_main_call1_v2_apply, val_main_call1_v4_apply, val_main_call1_v3_apply,
    val_main_cst_2_apply, val_main_call1_v1_apply, val_main_call1_v0_apply, val_main_cst_1_apply,
    val_main_v16_apply, val_main_v13_apply, val_main_v15_apply, val_main_v14_apply]
  have hs : ∑ k : Fin 512, val_main_v11 (F := Ideal) x0 x1 x2 x3 (lidx_main_v13 (ix2 r j) k) * val_main_v12 (F := Ideal) x4 (ridx_main_v13 (ix2 r j) k)
      = ∑ q : Fin 512, layer0 (dotRow x0 x2 r) (dotRow x1 x2 r) (fun j => x3 (ix1 j)) q * x4 (ix2 j q) :=
    Finset.sum_congr rfl fun k _ => by
      have e1 : lidx_main_v13 (ix2 r j) k = ix2 r k := funext fun a => by match a with | ⟨0, _⟩ => rfl | ⟨1, _⟩ => rfl
      have e2 : idx_main_v12 (ridx_main_v13 (ix2 r j) k) = ix2 j k := funext fun a => by match a with | ⟨0, _⟩ => rfl | ⟨1, _⟩ => rfl
      rw [val_main_v12_apply, e1, e2, joined_eq]
  have eb : idx_main_v14 (idx_main_v15 (ix2 r j)) = ix1 j := funext fun a => by match a with | ⟨0, _⟩ => rfl
  rw [hs, eb]; rfl

/-- The third layer of the reference at row `r`, column `j`: the result entry. -/
theorem third_eq (r : Fin 2048) (j : Fin 32) :
    val_main_v23 (F := Ideal) x0 x1 x2 x3 x4 x5 x6 x7 (ix2 r j)
      = layer2 (dotRow x0 x2 r) (dotRow x1 x2 r) (fun j => x3 (ix1 j)) (fun j q => x4 (ix2 j q)) (fun j => x5 (ix1 j))
          (fun j q => x6 (ix2 j q)) (fun j => x7 (ix1 j)) j := by
  rw [val_main_v23_apply, val_main_call2_v2_apply, val_main_call2_v4_apply, val_main_call2_v3_apply,
    val_main_cst_4_apply, val_main_call2_v1_apply, val_main_call2_v0_apply, val_main_cst_3_apply,
    val_main_v22_apply, val_main_v19_apply, val_main_v21_apply, val_main_v20_apply]
  have hs : ∑ k : Fin 32, val_main_v17 (F := Ideal) x0 x1 x2 x3 x4 x5 (lidx_main_v19 (ix2 r j) k) * val_main_v18 (F := Ideal) x6 (ridx_main_v19 (ix2 r j) k)
      = ∑ q : Fin 32, layer1 (dotRow x0 x2 r) (dotRow x1 x2 r) (fun j => x3 (ix1 j)) (fun j q => x4 (ix2 j q)) (fun j => x5 (ix1 j)) q * x6 (ix2 j q) :=
    Finset.sum_congr rfl fun k _ => by
      have e1 : lidx_main_v19 (ix2 r j) k = ix2 r k := funext fun a => by match a with | ⟨0, _⟩ => rfl | ⟨1, _⟩ => rfl
      have e2 : idx_main_v18 (ridx_main_v19 (ix2 r j) k) = ix2 j k := funext fun a => by match a with | ⟨0, _⟩ => rfl | ⟨1, _⟩ => rfl
      rw [val_main_v18_apply, e1, e2, second_eq]
  have eb : idx_main_v20 (idx_main_v21 (ix2 r j)) = ix1 j := funext fun a => by match a with | ⟨0, _⟩ => rfl
  rw [hs, eb]; rfl

/-- The reference's result array is the specification of its arguments. -/
theorem result_eq : val_main_v23 (F := Ideal) x0 x1 x2 x3 x4 x5 x6 x7 = G x0 x1 x2 x3 x4 x5 x6 x7 := by
  funext i
  obtain ⟨r, j, rfl⟩ : ∃ (r : Fin 2048) (j : Fin 32), i = ix2 r j := ⟨i 0, i 1, eq_ix2 i⟩
  rw [third_eq]; rfl

end Cert.ReferenceIdeal.RefValue

end
-- ==== Proof.KernelPieces.lean ====
/-
  What one run of the body leaves behind, as values of what it found.

  The body keeps two running [1024, 256] accumulators. At a point it adds to each the product of
  the point's input block with the point's weight block; at the first point of a row of the grid
  it first resets both to zero, and at the last it also computes the three clipped layers from
  the two accumulators and stores the [1024, 32] result block. Each lemma below reads one
  buffer's contents after the body — the stores into it, last first, read back — as the
  body's arithmetic applied to the point's input blocks and to the accumulators the point before
  left. They hold for any float instance.
-/
import proofs.«106080_j74706661146752_1_alg».proof.Proof.Gen.KernelIdeal.Frame
import Idealize.ShloMosaic.Lib.Pipeline.Value

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A point that neither resets nor finishes: the first accumulator gains the product of the first input block and the weight block. -/
theorem acc0_mid (c : Dev nD) (i : grid0.Coords) (arg2 : Memref sig .tc .vmem S1024x896 .f32) (harg2 : arg2.IsWhole) (arg3 : Memref sig .tc .vmem S1024x896 .f32) (harg3 : arg3.IsWhole) (arg4 : Memref sig .tc .vmem S256x896 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1024x32 .f32) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i) (x0 : Vec F S1024x896 .f32) (x1 : Vec F S1024x896 .f32) (x2 : Vec F S256x896 .f32) (x3 : Vec F S1x256 .f32) (x4 : Vec F S32x512 .f32) (x5 : Vec F S1x32 .f32) (x6 : Vec F S32x32 .f32) (x7 : Vec F S1x32 .f32) (xs0 : Vec F S1024x256 .f32) (xs1 : Vec F S1024x256 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay4 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x896) hz, View.ld_unit_zero (S := S256x896) hz, View.ld_unit_zero (S := S1024x256) hz, View.ld_unit_zero (S := S1x256) hz, View.ld_unit_zero (S := S32x512) hz, View.ld_unit_zero (S := S1x32) hz, View.ld_unit_zero (S := S32x32) hz]

/-- … and the second accumulator the product of the second input block and the weight block. -/
theorem acc1_mid (c : Dev nD) (i : grid0.Coords) (arg2 : Memref sig .tc .vmem S1024x896 .f32) (harg2 : arg2.IsWhole) (arg3 : Memref sig .tc .vmem S1024x896 .f32) (harg3 : arg3.IsWhole) (arg4 : Memref sig .tc .vmem S256x896 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1024x32 .f32) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : ¬cond0_1 i) (x0 : Vec F S1024x896 .f32) (x1 : Vec F S1024x896 .f32) (x2 : Vec F S256x896 .f32) (x3 : Vec F S1x256 .f32) (x4 : Vec F S32x512 .f32) (x5 : Vec F S1x32 .f32) (x6 : Vec F S32x32 .f32) (x7 : Vec F S1x32 .f32) (xs0 : Vec F S1024x256 .f32) (xs1 : Vec F S1024x256 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay5 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x896) hz, View.ld_unit_zero (S := S256x896) hz, View.ld_unit_zero (S := S1024x256) hz, View.ld_unit_zero (S := S1x256) hz, View.ld_unit_zero (S := S32x512) hz, View.ld_unit_zero (S := S1x32) hz, View.ld_unit_zero (S := S32x32) hz]

/-- A finishing point updates the first accumulator in the same way before it reads it. -/
theorem acc0_last (c : Dev nD) (i : grid0.Coords) (arg2 : Memref sig .tc .vmem S1024x896 .f32) (harg2 : arg2.IsWhole) (arg3 : Memref sig .tc .vmem S1024x896 .f32) (harg3 : arg3.IsWhole) (arg4 : Memref sig .tc .vmem S256x896 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1024x32 .f32) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i) (x0 : Vec F S1024x896 .f32) (x1 : Vec F S1024x896 .f32) (x2 : Vec F S256x896 .f32) (x3 : Vec F S1x256 .f32) (x4 : Vec F S32x512 .f32) (x5 : Vec F S1x32 .f32) (x6 : Vec F S32x32 .f32) (x7 : Vec F S1x32 .f32) (xs0 : Vec F S1024x256 .f32) (xs1 : Vec F S1024x256 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay4 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x896) hz, View.ld_unit_zero (S := S256x896) hz, View.ld_unit_zero (S := S1024x256) hz, View.ld_unit_zero (S := S1x256) hz, View.ld_unit_zero (S := S32x512) hz, View.ld_unit_zero (S := S1x32) hz, View.ld_unit_zero (S := S32x32) hz]

/-- … and the second. -/
theorem acc1_last (c : Dev nD) (i : grid0.Coords) (arg2 : Memref sig .tc .vmem S1024x896 .f32) (harg2 : arg2.IsWhole) (arg3 : Memref sig .tc .vmem S1024x896 .f32) (harg3 : arg3.IsWhole) (arg4 : Memref sig .tc .vmem S256x896 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1024x32 .f32) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i) (x0 : Vec F S1024x896 .f32) (x1 : Vec F S1024x896 .f32) (x2 : Vec F S256x896 .f32) (x3 : Vec F S1x256 .f32) (x4 : Vec F S32x512 .f32) (x5 : Vec F S1x32 .f32) (x6 : Vec F S32x32 .f32) (x7 : Vec F S1x32 .f32) (xs0 : Vec F S1024x256 .f32) (xs1 : Vec F S1024x256 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay5 x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x896) hz, View.ld_unit_zero (S := S256x896) hz, View.ld_unit_zero (S := S1024x256) hz, View.ld_unit_zero (S := S1x256) hz, View.ld_unit_zero (S := S32x512) hz, View.ld_unit_zero (S := S1x32) hz, View.ld_unit_zero (S := S32x32) hz]

/-- A resetting point stores zeros, reads them back, and adds the first product to them. -/
theorem acc0_first (c : Dev nD) (i : grid0.Coords) (arg2 : Memref sig .tc .vmem S1024x896 .f32) (harg2 : arg2.IsWhole) (arg3 : Memref sig .tc .vmem S1024x896 .f32) (harg3 : arg3.IsWhole) (arg4 : Memref sig .tc .vmem S256x896 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1024x32 .f32) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i) (x0 : Vec F S1024x896 .f32) (x1 : Vec F S1024x896 .f32) (x2 : Vec F S256x896 .f32) (x3 : Vec F S1x256 .f32) (x4 : Vec F S32x512 .f32) (x5 : Vec F S1x32 .f32) (x6 : Vec F S32x32 .f32) (x7 : Vec F S1x32 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay4 x0 x2 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x896) hz, View.ld_unit_zero (S := S256x896) hz, View.ld_unit_zero (S := S1024x256) hz, View.ld_unit_zero (S := S1x256) hz, View.ld_unit_zero (S := S32x512) hz, View.ld_unit_zero (S := S1x32) hz, View.ld_unit_zero (S := S32x32) hz]

/-- … and likewise for the second accumulator. -/
theorem acc1_first (c : Dev nD) (i : grid0.Coords) (arg2 : Memref sig .tc .vmem S1024x896 .f32) (harg2 : arg2.IsWhole) (arg3 : Memref sig .tc .vmem S1024x896 .f32) (harg3 : arg3.IsWhole) (arg4 : Memref sig .tc .vmem S256x896 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1024x32 .f32) (harg10 : arg10.IsWhole) (arg11 : Memref sig .tc .vmem S1024x256 .f32) (harg11 : arg11.IsWhole) (arg12 : Memref sig .tc .vmem S1024x256 .f32) (harg12 : arg12.IsWhole) (hc0 : cond0_0 i) (hc1 : ¬cond0_1 i) (x0 : Vec F S1024x896 .f32) (x1 : Vec F S1024x896 .f32) (x2 : Vec F S256x896 .f32) (x3 : Vec F S1x256 .f32) (x4 : Vec F S32x512 .f32) (x5 : Vec F S1x32 .f32) (x6 : Vec F S32x32 .f32) (x7 : Vec F S1x32 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay5 x1 x2 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x896) hz, View.ld_unit_zero (S := S256x896) hz, View.ld_unit_zero (S := S1024x256) hz, View.ld_unit_zero (S := S1x256) hz, View.ld_unit_zero (S := S32x512) hz, View.ld_unit_zero (S := S1x32) hz, View.ld_unit_zero (S := S32x32) hz]

/-- The result block a finishing point stores: the three layers over the two accumulators as just updated. -/
theorem out_last (c : Dev nD) (i : grid0.Coords) (arg2 : Memref sig .tc .vmem S1024x896 .f32) (harg2 : arg2.IsWhole) (arg3 : Memref sig .tc .vmem S1024x896 .f32) (harg3 : arg3.IsWhole) (arg4 : Memref sig .tc .vmem S256x896 .f32) (harg4 : arg4.IsWhole) (arg5 : Memref sig .tc .vmem S1x256 .f32) (harg5 : arg5.IsWhole) (arg6 : Memref sig .tc .vmem S32x512 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1024x32 .f32) (harg10 : arg10.IsWhole) (arg11 : Memref sig .tc .vmem S1024x256 .f32) (harg11 : arg11.IsWhole) (arg12 : Memref sig .tc .vmem S1024x256 .f32) (harg12 : arg12.IsWhole) (hc0 : ¬cond0_0 i) (hc1 : cond0_1 i) (x0 : Vec F S1024x896 .f32) (x1 : Vec F S1024x896 .f32) (x2 : Vec F S256x896 .f32) (x3 : Vec F S1x256 .f32) (x4 : Vec F S32x512 .f32) (x5 : Vec F S1x32 .f32) (x6 : Vec F S32x32 .f32) (x7 : Vec F S1x32 .f32) (xs0 : Vec F S1024x256 .f32) (xs1 : Vec F S1024x256 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1
      = k0_pay6 (k0_pay7 (k0_pay4 x0 x2 xs0) x3 (k0_pay5 x1 x2 xs1) x3 x4 x5 x6) x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz]
  simp only [View.readCov_unit_zero (S := S1024x256) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x896) hz, View.ld_unit_zero (S := S256x896) hz, View.ld_unit_zero (S := S1024x256) hz, View.ld_unit_zero (S := S1x256) hz, View.ld_unit_zero (S := S32x512) hz, View.ld_unit_zero (S := S1x32) hz, View.ld_unit_zero (S := S32x32) hz]

end Cert.KernelIdeal.Pieces

end
-- ==== Proof.KernelPayload.lean ====
/-
  The body's arithmetic, read at one entry, over the extended reals.

  One update of an accumulator adds, at row `p` and column `q`, the sum over the block's 896
  columns of the input block's row `p` times the weight block's row `q`. The reset value is
  zero everywhere. The finishing arithmetic at row `p`, column `q` is the specification's third
  layer over row `p` of the two accumulators: the changes of float format in between are the
  identity on extended reals, a product into a zero accumulator is the plain sum of products, a
  one-row array broadcast down the rows reads its one row, and two arrays set side by side read
  the left one below column 256 and the right one from there on.
-/
import proofs.«106080_j74706661146752_1_alg».proof.Proof.Gen.KernelIdeal.Skeleton
import proofs.«106080_j74706661146752_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Payload

open Cert.KernelIdeal Cert.KernelIdeal.Gen Idealize.ShloMosaic Idealize.ShloMosaic.ValueIdx Cert.Spec

/-- The left operand's row coordinate at output entry `i` is `i`'s row. -/
theorem lrow896 (i : S1024x256.Idx) (c : dot_S1024x896_S256x896_S1024x256_1_1_0_0_n_n.contr.Idx) : (dot_S1024x896_S256x896_S1024x256_1_1_0_0_n_n.lhsIdx i c 0).val = (i 0).val := by
  unfold DotDims.lhsIdx
  rw [dif_neg (show ¬(0 : Fin S1024x896.rank) ∈ dot_S1024x896_S256x896_S1024x256_1_1_0_0_n_n.lhsBatch by decide), dif_pos (show (0 : Fin S1024x896.rank) ∈ dot_S1024x896_S256x896_S1024x256_1_1_0_0_n_n.lhsNonContracting by decide)]
  rfl
/-- The right operand's row coordinate at output entry `i` is `i`'s column. -/
theorem rrow896 (i : S1024x256.Idx) (c : dot_S1024x896_S256x896_S1024x256_1_1_0_0_n_n.contr.Idx) : (dot_S1024x896_S256x896_S1024x256_1_1_0_0_n_n.rhsIdx i c 0).val = (i 1).val := by
  unfold DotDims.rhsIdx
  rw [dif_neg (show ¬(0 : Fin S256x896.rank) ∈ dot_S1024x896_S256x896_S1024x256_1_1_0_0_n_n.rhsBatch by decide), dif_pos (show (0 : Fin S256x896.rank) ∈ dot_S1024x896_S256x896_S1024x256_1_1_0_0_n_n.rhsNonContracting by decide)]
  rfl

/-- A product contracting the last axis of both operands into a zero accumulator, read at row `p`, column `q`:
    the sum over the 896 positions of the left operand's row `p` times the right operand's row `q`. -/
theorem mm896 (l : FVec Ideal S1024x896 .bf16) (r : FVec Ideal S256x896 .bf16) (p : Fin 1024) (q : Fin 256) :
    matmul dot_S1024x896_S256x896_S1024x256_1_1_0_0_n_n none l r (constant (F := Ideal) S1024x256 .f32 0x00000000#32) (ix2 p q)
      = ∑ k : Fin 896, l (ix2 p k) * r (ix2 q k) := by
  simp only [matmul]
  rw [Ideal.matmul_constant_zero_apply, ← Equiv.sum_comp (contrEquiv1 dot_S1024x896_S256x896_S1024x256_1_1_0_0_n_n 896 rfl rfl).symm]
  refine Finset.sum_congr rfl fun k _ => ?_
  have hk := contrEquiv1_symm_val dot_S1024x896_S256x896_S1024x256_1_1_0_0_n_n 896 rfl rfl k
  have el : dot_S1024x896_S256x896_S1024x256_1_1_0_0_n_n.lhsIdx (ix2 p q) ((contrEquiv1 dot_S1024x896_S256x896_S1024x256_1_1_0_0_n_n 896 rfl rfl).symm k) = ix2 p k := funext fun a => Fin.ext (by
    match a with
    | ⟨0, _⟩ => exact lrow896 _ _
    | ⟨1, _⟩ => exact (dot_S1024x896_S256x896_S1024x256_1_1_0_0_n_n.lhsIdx_val_of_single rfl _ _).trans hk)
  have er : dot_S1024x896_S256x896_S1024x256_1_1_0_0_n_n.rhsIdx (ix2 p q) ((contrEquiv1 dot_S1024x896_S256x896_S1024x256_1_1_0_0_n_n 896 rfl rfl).symm k) = ix2 q k := funext fun a => Fin.ext (by
    match a with
    | ⟨0, _⟩ => exact rrow896 _ _
    | ⟨1, _⟩ => exact (dot_S1024x896_S256x896_S1024x256_1_1_0_0_n_n.rhsIdx_val_of_single rfl _ _).trans hk)
  rw [el, er]

/-- The left operand's row coordinate at output entry `i` is `i`'s row. -/
theorem lrow512 (i : S1024x32.Idx) (c : dot_S1024x512_S32x512_S1024x32_1_1_0_0_n_n.contr.Idx) : (dot_S1024x512_S32x512_S1024x32_1_1_0_0_n_n.lhsIdx i c 0).val = (i 0).val := by
  unfold DotDims.lhsIdx
  rw [dif_neg (show ¬(0 : Fin S1024x512.rank) ∈ dot_S1024x512_S32x512_S1024x32_1_1_0_0_n_n.lhsBatch by decide), dif_pos (show (0 : Fin S1024x512.rank) ∈ dot_S1024x512_S32x512_S1024x32_1_1_0_0_n_n.lhsNonContracting by decide)]
  rfl
/-- The right operand's row coordinate at output entry `i` is `i`'s column. -/
theorem rrow512 (i : S1024x32.Idx) (c : dot_S1024x512_S32x512_S1024x32_1_1_0_0_n_n.contr.Idx) : (dot_S1024x512_S32x512_S1024x32_1_1_0_0_n_n.rhsIdx i c 0).val = (i 1).val := by
  unfold DotDims.rhsIdx
  rw [dif_neg (show ¬(0 : Fin S32x512.rank) ∈ dot_S1024x512_S32x512_S1024x32_1_1_0_0_n_n.rhsBatch by decide), dif_pos (show (0 : Fin S32x512.rank) ∈ dot_S1024x512_S32x512_S1024x32_1_1_0_0_n_n.rhsNonContracting by decide)]
  rfl

/-- A product contracting the last axis of both operands into a zero accumulator, read at row `p`, column `q`:
    the sum over the 512 positions of the left operand's row `p` times the right operand's row `q`. -/
theorem mm512 (l : FVec Ideal S1024x512 .bf16) (r : FVec Ideal S32x512 .bf16) (p : Fin 1024) (q : Fin 32) :
    matmul dot_S1024x512_S32x512_S1024x32_1_1_0_0_n_n none l r (constant (F := Ideal) S1024x32 .f32 0x00000000#32) (ix2 p q)
      = ∑ k : Fin 512, l (ix2 p k) * r (ix2 q k) := by
  simp only [matmul]
  rw [Ideal.matmul_constant_zero_apply, ← Equiv.sum_comp (contrEquiv1 dot_S1024x512_S32x512_S1024x32_1_1_0_0_n_n 512 rfl rfl).symm]
  refine Finset.sum_congr rfl fun k _ => ?_
  have hk := contrEquiv1_symm_val dot_S1024x512_S32x512_S1024x32_1_1_0_0_n_n 512 rfl rfl k
  have el : dot_S1024x512_S32x512_S1024x32_1_1_0_0_n_n.lhsIdx (ix2 p q) ((contrEquiv1 dot_S1024x512_S32x512_S1024x32_1_1_0_0_n_n 512 rfl rfl).symm k) = ix2 p k := funext fun a => Fin.ext (by
    match a with
    | ⟨0, _⟩ => exact lrow512 _ _
    | ⟨1, _⟩ => exact (dot_S1024x512_S32x512_S1024x32_1_1_0_0_n_n.lhsIdx_val_of_single rfl _ _).trans hk)
  have er : dot_S1024x512_S32x512_S1024x32_1_1_0_0_n_n.rhsIdx (ix2 p q) ((contrEquiv1 dot_S1024x512_S32x512_S1024x32_1_1_0_0_n_n 512 rfl rfl).symm k) = ix2 q k := funext fun a => Fin.ext (by
    match a with
    | ⟨0, _⟩ => exact rrow512 _ _
    | ⟨1, _⟩ => exact (dot_S1024x512_S32x512_S1024x32_1_1_0_0_n_n.rhsIdx_val_of_single rfl _ _).trans hk)
  rw [el, er]

/-- The left operand's row coordinate at output entry `i` is `i`'s row. -/
theorem lrow32 (i : S1024x32.Idx) (c : dot_S1024x32_S32x32_S1024x32_1_1_0_0_n_n.contr.Idx) : (dot_S1024x32_S32x32_S1024x32_1_1_0_0_n_n.lhsIdx i c 0).val = (i 0).val := by
  unfold DotDims.lhsIdx
  rw [dif_neg (show ¬(0 : Fin S1024x32.rank) ∈ dot_S1024x32_S32x32_S1024x32_1_1_0_0_n_n.lhsBatch by decide), dif_pos (show (0 : Fin S1024x32.rank) ∈ dot_S1024x32_S32x32_S1024x32_1_1_0_0_n_n.lhsNonContracting by decide)]
  rfl
/-- The right operand's row coordinate at output entry `i` is `i`'s column. -/
theorem rrow32 (i : S1024x32.Idx) (c : dot_S1024x32_S32x32_S1024x32_1_1_0_0_n_n.contr.Idx) : (dot_S1024x32_S32x32_S1024x32_1_1_0_0_n_n.rhsIdx i c 0).val = (i 1).val := by
  unfold DotDims.rhsIdx
  rw [dif_neg (show ¬(0 : Fin S32x32.rank) ∈ dot_S1024x32_S32x32_S1024x32_1_1_0_0_n_n.rhsBatch by decide), dif_pos (show (0 : Fin S32x32.rank) ∈ dot_S1024x32_S32x32_S1024x32_1_1_0_0_n_n.rhsNonContracting by decide)]
  rfl

/-- A product contracting the last axis of both operands into a zero accumulator, read at row `p`, column `q`:
    the sum over the 32 positions of the left operand's row `p` times the right operand's row `q`. -/
theorem mm32 (l : FVec Ideal S1024x32 .bf16) (r : FVec Ideal S32x32 .bf16) (p : Fin 1024) (q : Fin 32) :
    matmul dot_S1024x32_S32x32_S1024x32_1_1_0_0_n_n none l r (constant (F := Ideal) S1024x32 .f32 0x00000000#32) (ix2 p q)
      = ∑ k : Fin 32, l (ix2 p k) * r (ix2 q k) := by
  simp only [matmul]
  rw [Ideal.matmul_constant_zero_apply, ← Equiv.sum_comp (contrEquiv1 dot_S1024x32_S32x32_S1024x32_1_1_0_0_n_n 32 rfl rfl).symm]
  refine Finset.sum_congr rfl fun k _ => ?_
  have hk := contrEquiv1_symm_val dot_S1024x32_S32x32_S1024x32_1_1_0_0_n_n 32 rfl rfl k
  have el : dot_S1024x32_S32x32_S1024x32_1_1_0_0_n_n.lhsIdx (ix2 p q) ((contrEquiv1 dot_S1024x32_S32x32_S1024x32_1_1_0_0_n_n 32 rfl rfl).symm k) = ix2 p k := funext fun a => Fin.ext (by
    match a with
    | ⟨0, _⟩ => exact lrow32 _ _
    | ⟨1, _⟩ => exact (dot_S1024x32_S32x32_S1024x32_1_1_0_0_n_n.lhsIdx_val_of_single rfl _ _).trans hk)
  have er : dot_S1024x32_S32x32_S1024x32_1_1_0_0_n_n.rhsIdx (ix2 p q) ((contrEquiv1 dot_S1024x32_S32x32_S1024x32_1_1_0_0_n_n 32 rfl rfl).symm k) = ix2 q k := funext fun a => Fin.ext (by
    match a with
    | ⟨0, _⟩ => exact rrow32 _ _
    | ⟨1, _⟩ => exact (dot_S1024x32_S32x32_S1024x32_1_1_0_0_n_n.rhsIdx_val_of_single rfl _ _).trans hk)
  rw [el, er]

/-- Two [1024, 256] arrays set side by side, read at row `p`, column `k`: the left one below column 256, the right
    one, 256 columns back, from there on. -/
theorem concat_cols {α : Type} (u v : S1024x256.Idx → α) (h : Shape.Concatenates [S1024x256, S1024x256] S1024x512 1)
    (p : Fin 1024) (k : Fin 512) :
    concatenate S1024x512 1 [⟨S1024x256, u⟩, ⟨S1024x256, v⟩] h (ix2 p k)
      = if hk : k.val < 256 then u (ix2 p ⟨k.val, hk⟩) else v (ix2 p ⟨k.val - 256, by have := k.isLt; omega⟩) := by
  have hK := k.isLt
  by_cases hk : k.val < 256
  · rw [dif_pos hk]
    exact concatenate_pair_apply_left 1 u v h (ix2 p k) rfl (ix2 p (⟨k.val, hk⟩ : Fin 256) : S1024x256.Idx)
      (fun b => by match b with | ⟨0, _⟩ => rfl | ⟨1, _⟩ => rfl)
  · rw [dif_neg hk]
    exact concatenate_pair_apply_right 1 u v h (ix2 p k) rfl rfl (ix2 p (⟨k.val - 256, by omega⟩ : Fin 256) : S1024x256.Idx)
      (fun b hb => by match b with | ⟨0, _⟩ => rfl | ⟨1, _⟩ => exact absurd rfl hb)
      (by show k.val - 256 + 256 = k.val; omega)

/-- The reset value of the first accumulator is zero at every entry. -/
theorem reset0_apply (i : S1024x256.Idx) : k0_pay1 (F := Ideal) i = 0 := by
  unfold k0_pay1
  simp only [shapeCast_self]
  exact Ideal.ofBits_zero_f32

/-- The reset value of the second accumulator is zero at every entry. -/
theorem reset1_apply (i : S1024x256.Idx) : k0_pay2 (F := Ideal) i = 0 := by
  unfold k0_pay2
  simp only [shapeCast_self]
  exact Ideal.ofBits_zero_f32

/-- One update of the first accumulator at row `p`, column `q`. -/
theorem upd0_apply (x : Vec Ideal S1024x896 .f32) (w : Vec Ideal S256x896 .f32) (acc : Vec Ideal S1024x256 .f32)
    (p : Fin 1024) (q : Fin 256) :
    k0_pay4 x w acc (ix2 p q) = acc (ix2 p q) + ∑ k : Fin 896, x (ix2 p k) * w (ix2 q k) := by
  unfold k0_pay4 k0_pay3
  simp only [shapeCast_self]
  refine (addf_apply _ _ _).trans ?_
  rw [mm896]
  rfl

/-- One update of the second accumulator at row `p`, column `q`. -/
theorem upd1_apply (x : Vec Ideal S1024x896 .f32) (w : Vec Ideal S256x896 .f32) (acc : Vec Ideal S1024x256 .f32)
    (p : Fin 1024) (q : Fin 256) :
    k0_pay5 x w acc (ix2 p q) = acc (ix2 p q) + ∑ k : Fin 896, x (ix2 p k) * w (ix2 q k) := by
  unfold k0_pay5 k0_pay3
  simp only [shapeCast_self]
  refine (addf_apply _ _ _).trans ?_
  rw [mm896]
  rfl

/-- The finishing arithmetic at row `p`, column `q`: the third layer over row `p` of the two accumulators. -/
theorem tail_apply (a0 : Vec Ideal S1024x256 .f32) (b : Vec Ideal S1x256 .f32) (a1 : Vec Ideal S1024x256 .f32)
    (W1 : Vec Ideal S32x512 .f32) (b1 : Vec Ideal S1x32 .f32) (W2 : Vec Ideal S32x32 .f32) (b2 : Vec Ideal S1x32 .f32)
    (p : Fin 1024) (q : Fin 32) :
    k0_pay6 (k0_pay7 a0 b a1 b W1 b1 W2) b2 (ix2 p q)
      = layer2 (fun j => a0 (ix2 p j)) (fun j => a1 (ix2 p j)) (fun j => b (ix2 (0 : Fin 1) j))
          (fun j k => W1 (ix2 j k)) (fun j => b1 (ix2 (0 : Fin 1) j)) (fun j k => W2 (ix2 j k))
          (fun j => b2 (ix2 (0 : Fin 1) j)) q := by
  unfold k0_pay6 k0_pay7
  simp only [shapeCast_self]
  simp only [minimumf_apply, maximumf_apply, addf_apply, broadcast_apply, broadcastTo_1b_ab_apply, mm32, mm512,
    truncf_apply, concat_cols, shapeCast_self]
  rfl

end Cert.KernelIdeal.Payload

end
-- ==== Proof.KernelBlocks.lean ====
/-
  The region's inputs, read where the body reads them.

  Before the region the three wide arrays are padded on the right with 192 zero columns, to
  41216 = 46 · 896 columns, and the three bias vectors are recast as one-row arrays; the two small
  weight matrices are passed as they are. At grid point `t` the first two windows hold rows
  1024·(t / 46) … of their padded array and columns 896·(t mod 46) …; the third holds all 256
  rows of the padded weights and the same columns; the other five hold their whole arrays.

  To speak of "column 896·s + l" without carrying bounds, each wide argument is extended by zero to
  all pairs of naturals (`X0`, `X1`, `XW`): the padded array is that extension restricted, and the
  padding columns are where the extension is zero.
-/
import proofs.«106080_j74706661146752_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.KernelVsHost

noncomputable section

namespace Cert.KernelIdeal.Blocks

open Cert.KernelIdeal Cert.KernelIdeal.Gen Idealize.ShloMosaic Idealize.ShloMosaic.TcCoe Idealize.ShloMosaic.Tactic
open Idealize.SL.Sem Idealize.ShloMosaic.StableHlo Idealize.ShloMosaic.ValueIdx

/-! ## What the operations before the region leave, for any float instance -/

section AnyInstance
variable {F : FTy → Type} [FloatOps F]
variable (m : (ℓ : Loc nD τ sig) → Buf (Elt F) ℓ)

theorem v0_eq (c : Dev nD) : (V m c main_v0 : S2048x41216.Idx → Elt F .f32) =
    pad S2048x41216 ![0, 0] ![0, 192] ![0, 0] (m ((c : Thread nD τ).loc main_arg0)) (sitofp (F := F) .f32 (constantI S_ 32 0#32)) pads_S2048x41024_S2048x41216_000_01920 h_S_ := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem v1_eq (c : Dev nD) : (V m c main_v1 : S2048x41216.Idx → Elt F .f32) =
    pad S2048x41216 ![0, 0] ![0, 192] ![0, 0] (m ((c : Thread nD τ).loc main_arg1)) (sitofp (F := F) .f32 (constantI S_ 32 0#32)) pads_S2048x41024_S2048x41216_000_01920 h_S_ := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem v2_eq (c : Dev nD) : (V m c main_v2 : S256x41216.Idx → Elt F .f32) =
    pad S256x41216 ![0, 0] ![0, 192] ![0, 0] (m ((c : Thread nD τ).loc main_arg2)) (sitofp (F := F) .f32 (constantI S_ 32 0#32)) pads_S256x41024_S256x41216_000_01920 h_S_ := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem v3_eq (c : Dev nD) : (V m c main_v3 : S1x256.Idx → Elt F .f32) =
    shapeCast S1x256 (m ((c : Thread nD τ).loc main_arg3)) shapeCasts_S256_S1x256 := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem v4_eq (c : Dev nD) : (V m c main_v4 : S1x32.Idx → Elt F .f32) =
    shapeCast S1x32 (m ((c : Thread nD τ).loc main_arg5)) shapeCasts_S32_S1x32 := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem v5_eq (c : Dev nD) : (V m c main_v5 : S1x32.Idx → Elt F .f32) =
    shapeCast S1x32 (m ((c : Thread nD τ).loc main_arg7)) shapeCasts_S32_S1x32 := by
  dsimp only [V]
  simp only [hostOps0, hostOps0_1, hostOps0_2, hostOps0_3, hostOps0_4, hostOps0_5, hostOps0_6, List.flatten_cons, List.flatten_nil, List.append_nil, List.cons_append, List.nil_append]
  after_results
  rfl

/-- Where each window's block sits at point `t`, decided over the grid's 92 points. -/
theorem idx_facts : ∀ t : Fin cfg0.N,
    win0_0.index t (0 : Fin 2) = t.val / 46 ∧ win0_0.index t (1 : Fin 2) = t.val % 46
    ∧ win0_1.index t (0 : Fin 2) = t.val / 46 ∧ win0_1.index t (1 : Fin 2) = t.val % 46
    ∧ win0_2.index t (0 : Fin 2) = 0 ∧ win0_2.index t (1 : Fin 2) = t.val % 46
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val / 46 ∧ win0_8.index t (1 : Fin 2) = 0 :=
  (by decide +kernel : ∀ t : Fin grid0.N, _)

end AnyInstance

/-! ## At the extended reals -/

variable (m : (ℓ : Loc nD τ sig) → Buf (Elt Ideal) ℓ)

/-- The first input extended by zero to all pairs of naturals. -/
def X0 (c : Dev nD) (R k : ℕ) : EReal :=
  if h : R < 2048 ∧ k < 41024 then m ((c : Thread nD τ).loc main_arg0) (ix2 ⟨R, h.1⟩ ⟨k, h.2⟩) else 0
/-- The second input extended by zero. -/
def X1 (c : Dev nD) (R k : ℕ) : EReal :=
  if h : R < 2048 ∧ k < 41024 then m ((c : Thread nD τ).loc main_arg1) (ix2 ⟨R, h.1⟩ ⟨k, h.2⟩) else 0
/-- The first weight matrix extended by zero. -/
def XW (c : Dev nD) (j k : ℕ) : EReal :=
  if h : j < 256 ∧ k < 41024 then m ((c : Thread nD τ).loc main_arg2) (ix2 ⟨j, h.1⟩ ⟨k, h.2⟩) else 0

/-- The padded first input as the region finds it, at any entry: the zero-extended argument at the entry's coordinates. -/
theorem v0_apply (c : Dev nD) (i : S2048x41216.Idx) : V m c main_v0 i = X0 m c (i 0).val (i 1).val := by
  have e := congrFun (v0_eq (F := Ideal) m c) i
  refine e.trans ?_
  unfold X0
  by_cases h : (i 1).val < 41024
  · rw [dif_pos ⟨(i 0).isLt, h⟩]
    exact pad_apply_of_inside _ _ _ _ _ _ _ i (ix2 ⟨(i 0).val, (i 0).isLt⟩ ⟨(i 1).val, h⟩) (fun a => by
      match a with
      | ⟨0, _⟩ => show (i 0).val = 0 + (i 0).val * (0 + 1); omega
      | ⟨1, _⟩ => show (i 1).val = 0 + (i 1).val * (0 + 1); omega)
  · rw [dif_neg (fun hh => h hh.2)]
    refine (pad_apply_of_not_inside _ _ _ _ _ _ _ i 1 (fun hh => h ?_)).trans (sitofp_zero (φ := .f32))
    have h3 : ((i 1).val - 0) / (0 + 1) < 41024 := hh.2.2
    omega

/-- The padded second input as the region finds it, at any entry: the zero-extended argument at the entry's coordinates. -/
theorem v1_apply (c : Dev nD) (i : S2048x41216.Idx) : V m c main_v1 i = X1 m c (i 0).val (i 1).val := by
  have e := congrFun (v1_eq (F := Ideal) m c) i
  refine e.trans ?_
  unfold X1
  by_cases h : (i 1).val < 41024
  · rw [dif_pos ⟨(i 0).isLt, h⟩]
    exact pad_apply_of_inside _ _ _ _ _ _ _ i (ix2 ⟨(i 0).val, (i 0).isLt⟩ ⟨(i 1).val, h⟩) (fun a => by
      match a with
      | ⟨0, _⟩ => show (i 0).val = 0 + (i 0).val * (0 + 1); omega
      | ⟨1, _⟩ => show (i 1).val = 0 + (i 1).val * (0 + 1); omega)
  · rw [dif_neg (fun hh => h hh.2)]
    refine (pad_apply_of_not_inside _ _ _ _ _ _ _ i 1 (fun hh => h ?_)).trans (sitofp_zero (φ := .f32))
    have h3 : ((i 1).val - 0) / (0 + 1) < 41024 := hh.2.2
    omega

/-- The padded weights as the region finds them, at any entry. -/
theorem v2_apply (c : Dev nD) (i : S256x41216.Idx) : V m c main_v2 i = XW m c (i 0).val (i 1).val := by
  have e := congrFun (v2_eq (F := Ideal) m c) i
  refine e.trans ?_
  unfold XW
  by_cases h : (i 1).val < 41024
  · rw [dif_pos ⟨(i 0).isLt, h⟩]
    exact pad_apply_of_inside _ _ _ _ _ _ _ i (ix2 ⟨(i 0).val, (i 0).isLt⟩ ⟨(i 1).val, h⟩) (fun a => by
      match a with
      | ⟨0, _⟩ => show (i 0).val = 0 + (i 0).val * (0 + 1); omega
      | ⟨1, _⟩ => show (i 1).val = 0 + (i 1).val * (0 + 1); omega)
  · rw [dif_neg (fun hh => h hh.2)]
    refine (pad_apply_of_not_inside _ _ _ _ _ _ _ i 1 (fun hh => h ?_)).trans (sitofp_zero (φ := .f32))
    have h3 : ((i 1).val - 0) / (0 + 1) < 41024 := hh.2.2
    omega

/-- The first input's block at point `t`: rows from 1024·(t / 46), columns from 896·(t mod 46). -/
theorem blk0_at (c : Dev nD) (t : Fin cfg0.N) (y : S1024x896.Idx) :
    (iblk m c 0 t : Vec Ideal S1024x896 .f32) y = X0 m c (1024 * (t.val / 46) + (y 0).val) (896 * (t.val % 46) + (y 1).val) := by
  obtain ⟨e0, e1, -⟩ := idx_facts t
  unfold iblk
  rw [View.read_apply]
  show V m c main_v0 _ = _
  rw [v0_apply]
  have hA : (((cfg0.win 0).blk t).view.emb y 0).val = 1024 * (t.val / 46) + (y 0).val := by
    show win0_0.index t 0 * 1024 + 1 * (y 0).val = _; rw [e0]; omega
  have hB : (((cfg0.win 0).blk t).view.emb y 1).val = 896 * (t.val % 46) + (y 1).val := by
    show win0_0.index t 1 * 896 + 1 * (y 1).val = _; rw [e1]; omega
  rw [hA, hB]

/-- The second input's block at point `t`: the same rows and columns of the second padded input. -/
theorem blk1_at (c : Dev nD) (t : Fin cfg0.N) (y : S1024x896.Idx) :
    (iblk m c 1 t : Vec Ideal S1024x896 .f32) y = X1 m c (1024 * (t.val / 46) + (y 0).val) (896 * (t.val % 46) + (y 1).val) := by
  obtain ⟨-, -, e0, e1, -⟩ := idx_facts t
  unfold iblk
  rw [View.read_apply]
  show V m c main_v1 _ = _
  rw [v1_apply]
  have hA : (((cfg0.win 1).blk t).view.emb y 0).val = 1024 * (t.val / 46) + (y 0).val := by
    show win0_1.index t 0 * 1024 + 1 * (y 0).val = _; rw [e0]; omega
  have hB : (((cfg0.win 1).blk t).view.emb y 1).val = 896 * (t.val % 46) + (y 1).val := by
    show win0_1.index t 1 * 896 + 1 * (y 1).val = _; rw [e1]; omega
  rw [hA, hB]

/-- The weight block at point `t`: every row, columns from 896·(t mod 46). -/
theorem blk2_at (c : Dev nD) (t : Fin cfg0.N) (y : S256x896.Idx) :
    (iblk m c 2 t : Vec Ideal S256x896 .f32) y = XW m c ((y 0).val) (896 * (t.val % 46) + (y 1).val) := by
  obtain ⟨-, -, -, -, e0, e1, -⟩ := idx_facts t
  unfold iblk
  rw [View.read_apply]
  show V m c main_v2 _ = _
  rw [v2_apply]
  have hA : (((cfg0.win 2).blk t).view.emb y 0).val = (y 0).val := by
    show win0_2.index t 0 * 256 + 1 * (y 0).val = _; rw [e0]; omega
  have hB : (((cfg0.win 2).blk t).view.emb y 1).val = 896 * (t.val % 46) + (y 1).val := by
    show win0_2.index t 1 * 896 + 1 * (y 1).val = _; rw [e1]; omega
  rw [hA, hB]

/-- The first bias window holds its whole one-row array at every point. -/
theorem blk3_eq (c : Dev nD) (t : Fin cfg0.N) : (iblk m c 3 t : Vec Ideal S1x256 .f32) = V m c main_v3 := by
  obtain ⟨-, -, -, -, -, -, e0, e1, -⟩ := idx_facts t
  funext y
  unfold iblk
  rw [View.read_apply]
  show V m c main_v3 _ = V m c main_v3 y
  congr 1
  funext a
  apply Fin.ext
  match a with
  | ⟨0, _⟩ => show win0_3.index t 0 * 1 + 1 * (y 0).val = (y 0).val; rw [e0]; omega
  | ⟨1, _⟩ => show win0_3.index t 1 * 256 + 1 * (y 1).val = (y 1).val; rw [e1]; omega

/-- The second weight matrix's window holds the whole matrix at every point. -/
theorem blk4_eq (c : Dev nD) (t : Fin cfg0.N) : (iblk m c 4 t : Vec Ideal S32x512 .f32) = V m c main_arg4 := by
  obtain ⟨-, -, -, -, -, -, -, -, e0, e1, -⟩ := idx_facts t
  funext y
  unfold iblk
  rw [View.read_apply]
  show V m c main_arg4 _ = V m c main_arg4 y
  congr 1
  funext a
  apply Fin.ext
  match a with
  | ⟨0, _⟩ => show win0_4.index t 0 * 32 + 1 * (y 0).val = (y 0).val; rw [e0]; omega
  | ⟨1, _⟩ => show win0_4.index t 1 * 512 + 1 * (y 1).val = (y 1).val; rw [e1]; omega

/-- The second bias window holds its whole one-row array at every point. -/
theorem blk5_eq (c : Dev nD) (t : Fin cfg0.N) : (iblk m c 5 t : Vec Ideal S1x32 .f32) = V m c main_v4 := by
  obtain ⟨-, -, -, -, -, -, -, -, -, -, e0, e1, -⟩ := idx_facts t
  funext y
  unfold iblk
  rw [View.read_apply]
  show V m c main_v4 _ = V m c main_v4 y
  congr 1
  funext a
  apply Fin.ext
  match a with
  | ⟨0, _⟩ => show win0_5.index t 0 * 1 + 1 * (y 0).val = (y 0).val; rw [e0]; omega
  | ⟨1, _⟩ => show win0_5.index t 1 * 32 + 1 * (y 1).val = (y 1).val; rw [e1]; omega

/-- The third weight matrix's window holds the whole matrix at every point. -/
theorem blk6_eq (c : Dev nD) (t : Fin cfg0.N) : (iblk m c 6 t : Vec Ideal S32x32 .f32) = V m c main_arg6 := by
  obtain ⟨-, -, -, -, -, -, -, -, -, -, -, -, e0, e1, -⟩ := idx_facts t
  funext y
  unfold iblk
  rw [View.read_apply]
  show V m c main_arg6 _ = V m c main_arg6 y
  congr 1
  funext a
  apply Fin.ext
  match a with
  | ⟨0, _⟩ => show win0_6.index t 0 * 32 + 1 * (y 0).val = (y 0).val; rw [e0]; omega
  | ⟨1, _⟩ => show win0_6.index t 1 * 32 + 1 * (y 1).val = (y 1).val; rw [e1]; omega

/-- The third bias window holds its whole one-row array at every point. -/
theorem blk7_eq (c : Dev nD) (t : Fin cfg0.N) : (iblk m c 7 t : Vec Ideal S1x32 .f32) = V m c main_v5 := by
  obtain ⟨-, -, -, -, -, -, -, -, -, -, -, -, -, -, e0, e1, -⟩ := idx_facts t
  funext y
  unfold iblk
  rw [View.read_apply]
  show V m c main_v5 _ = V m c main_v5 y
  congr 1
  funext a
  apply Fin.ext
  match a with
  | ⟨0, _⟩ => show win0_7.index t 0 * 1 + 1 * (y 0).val = (y 0).val; rw [e0]; omega
  | ⟨1, _⟩ => show win0_7.index t 1 * 32 + 1 * (y 1).val = (y 1).val; rw [e1]; omega

/-- The one-row first bias, at column `j`: the bias vector's entry `j`. -/
theorem bias0_at (c : Dev nD) (j : Fin 256) : V m c main_v3 (ix2 (0 : Fin 1) j) = m ((c : Thread nD τ).loc main_arg3) (ix1 j) := by
  rw [v3_eq]; exact shapeCast_a_1a_apply _ _ _ _
/-- The one-row second bias, at column `j`. -/
theorem bias1_at (c : Dev nD) (j : Fin 32) : V m c main_v4 (ix2 (0 : Fin 1) j) = m ((c : Thread nD τ).loc main_arg5) (ix1 j) := by
  rw [v4_eq]; exact shapeCast_a_1a_apply _ _ _ _
/-- The one-row third bias, at column `j`. -/
theorem bias2_at (c : Dev nD) (j : Fin 32) : V m c main_v5 (ix2 (0 : Fin 1) j) = m ((c : Thread nD τ).loc main_arg7) (ix1 j) := by
  rw [v5_eq]; exact shapeCast_a_1a_apply _ _ _ _

end Cert.KernelIdeal.Blocks

end
-- ==== Proof.KernelAcc.lean ====
/-
  The two accumulators after any grid point, in closed form.

  Write a point as `t = 46·q + s` with `s < 46`: it works on rows 1024·q … of the inputs and on
  columns 896·s … of the padded arrays. Point `46·q` resets the accumulators to zero and adds
  its block product; every later point of the same `q` adds its own. So after point `t` the
  first accumulator holds, at row `p` and column `j`, zero plus the sum over `s' ≤ s` of the
  block products `M0 (46·q + s')` — the sum over the block's 896 columns `l` of the first input at
  (1024·q + p, 896·s' + l) times the weights at (j, 896·s' + l) — and the second accumulator the
  same over the second input.
-/
import proofs.«106080_j74706661146752_1_alg».proof.Proof.Gen.KernelIdeal.Value
import proofs.«106080_j74706661146752_1_alg».proof.Proof.KernelPieces
import proofs.«106080_j74706661146752_1_alg».proof.Proof.KernelPayload
import proofs.«106080_j74706661146752_1_alg».proof.Proof.KernelBlocks

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx Cert.KernelIdeal.Pieces Cert.KernelIdeal.Payload Cert.KernelIdeal.Blocks

variable (m : (ℓ : Loc nD τ sig) → Buf (Elt Ideal) ℓ)

/-- Point `n`'s block product for the first accumulator, at entry `i`. -/
def M0 (c : Dev nD) (n : ℕ) (i : S1024x256.Idx) : EReal :=
  ∑ l : Fin 896, X0 m c (1024 * (n / 46) + (i 0).val) (896 * (n % 46) + l.val) * XW m c (i 1).val (896 * (n % 46) + l.val)

/-- Point `n`'s block product for the second accumulator, at entry `i`. -/
def M1 (c : Dev nD) (n : ℕ) (i : S1024x256.Idx) : EReal :=
  ∑ l : Fin 896, X1 m c (1024 * (n / 46) + (i 0).val) (896 * (n % 46) + l.val) * XW m c (i 1).val (896 * (n % 46) + l.val)

/-- One update of the first accumulator at point `t` adds that point's block product. -/
theorem upd0_at (c : Dev nD) (t : Fin cfg0.N) (acc : Vec Ideal S1024x256 .f32) (i : S1024x256.Idx) :
    k0_pay4 (iblk m c 0 t) (iblk m c 2 t) acc i = acc i + M0 m c t.val i := by
  obtain ⟨p, q, rfl⟩ : ∃ (p : Fin 1024) (q : Fin 256), i = ix2 p q := ⟨i 0, i 1, eq_ix2 i⟩
  refine (upd0_apply (iblk m c 0 t) (iblk m c 2 t) acc p q).trans ?_
  unfold M0
  refine congrArg (acc (ix2 p q) + ·) (Finset.sum_congr rfl fun l _ => ?_)
  exact congrArg₂ (· * ·) (blk0_at m c t (ix2 p l)) (blk2_at m c t (ix2 q l))

/-- One update of the second accumulator at point `t` adds that point's block product. -/
theorem upd1_at (c : Dev nD) (t : Fin cfg0.N) (acc : Vec Ideal S1024x256 .f32) (i : S1024x256.Idx) :
    k0_pay5 (iblk m c 1 t) (iblk m c 2 t) acc i = acc i + M1 m c t.val i := by
  obtain ⟨p, q, rfl⟩ : ∃ (p : Fin 1024) (q : Fin 256), i = ix2 p q := ⟨i 0, i 1, eq_ix2 i⟩
  refine (upd1_apply (iblk m c 1 t) (iblk m c 2 t) acc p q).trans ?_
  unfold M1
  refine congrArg (acc (ix2 p q) + ·) (Finset.sum_congr rfl fun l _ => ?_)
  exact congrArg₂ (· * ·) (blk1_at m c t (ix2 p l)) (blk2_at m c t (ix2 q l))

/-- At a resetting point the first accumulator is left at zero plus the point's block product, whatever it held. -/
theorem first0 (c : Dev nD) (n : ℕ) (hb : n < cfg0.N) (acc : Vec Ideal S1024x256 .f32) (h0 : n % 46 = 0) (i : S1024x256.Idx) :
    Value.scAt0_0 m c n hb acc i = 0 + M0 m c n i := by
  have h1 : ¬n % 46 = 45 := by omega
  unfold Value.scAt0_0
  rw [dif_pos h0, dif_neg h1]
  refine (congrFun (acc0_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N))) i).trans ?_
  refine (upd0_at m c (⟨n, hb⟩ : Fin cfg0.N) (k0_pay1 (F := Ideal)) i).trans ?_
  rw [reset0_apply]

/-- At any other point the first accumulator gains the point's block product. -/
theorem step0 (c : Dev nD) (n : ℕ) (hb : n < cfg0.N) (acc : Vec Ideal S1024x256 .f32) (h0 : ¬n % 46 = 0) (i : S1024x256.Idx) :
    Value.scAt0_0 m c n hb acc i = acc i + M0 m c n i := by
  unfold Value.scAt0_0
  by_cases h1 : n % 46 = 45
  · rw [dif_neg h0, dif_pos h1]
    refine (congrFun (acc0_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2) i).trans ?_
    exact upd0_at m c (⟨n, hb⟩ : Fin cfg0.N) acc i
  · rw [dif_neg h0, dif_neg h1]
    refine (congrFun (acc0_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2) i).trans ?_
    exact upd0_at m c (⟨n, hb⟩ : Fin cfg0.N) acc i

/-- At a resetting point the second accumulator is left at zero plus the point's block product. -/
theorem first1 (c : Dev nD) (n : ℕ) (hb : n < cfg0.N) (acc : Vec Ideal S1024x256 .f32) (h0 : n % 46 = 0) (i : S1024x256.Idx) :
    Value.scAt0_1 m c n hb acc i = 0 + M1 m c n i := by
  have h1 : ¬n % 46 = 45 := by omega
  unfold Value.scAt0_1
  rw [dif_pos h0, dif_neg h1]
  refine (congrFun (acc1_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N))) i).trans ?_
  refine (upd1_at m c (⟨n, hb⟩ : Fin cfg0.N) (k0_pay2 (F := Ideal)) i).trans ?_
  rw [reset1_apply]

/-- At any other point the second accumulator gains the point's block product. -/
theorem step1 (c : Dev nD) (n : ℕ) (hb : n < cfg0.N) (acc : Vec Ideal S1024x256 .f32) (h0 : ¬n % 46 = 0) (i : S1024x256.Idx) :
    Value.scAt0_1 m c n hb acc i = acc i + M1 m c n i := by
  unfold Value.scAt0_1
  by_cases h1 : n % 46 = 45
  · rw [dif_neg h0, dif_pos h1]
    refine (congrFun (acc1_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc) i).trans ?_
    exact upd1_at m c (⟨n, hb⟩ : Fin cfg0.N) acc i
  · rw [dif_neg h0, dif_neg h1]
    refine (congrFun (acc1_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc) i).trans ?_
    exact upd1_at m c (⟨n, hb⟩ : Fin cfg0.N) acc i

/-- The first accumulator after point `t`: zero plus the block products of the points of `t`'s row of the grid up to `t`. -/
theorem acc0_closed (c : Dev nD) (t : Fin cfg0.N) (i : S1024x256.Idx) :
    (outsAt0 m c t.val t.isLt).2.1 i = 0 + ∑ s ∈ Finset.range (t.val % 46 + 1), M0 m c (46 * (t.val / 46) + s) i := by
  have hN : t.val < 92 := lt_of_lt_of_eq t.isLt (show cfg0.N = 92 from N_0)
  refine (congrFun (Value.soutsAt0_0_eq m c t) i).trans ?_
  exact Pipeline.accAt_add_apply (fun n h => Value.scAt0_0 m c n h (VS0_0.read (Elt Ideal) VS0_0.junk)) (Value.scAt0_0 m c)
    (fun _ => 0) (M0 m c) (46 * (t.val / 46)) 45
    (fun h i => first0 m c _ h _ (by omega) i)
    (fun n h acc i hlt hle => step0 m c n h acc (by omega) i)
    (t.val % 46) (by omega) _ i

/-- The second accumulator after point `t`, likewise. -/
theorem acc1_closed (c : Dev nD) (t : Fin cfg0.N) (i : S1024x256.Idx) :
    (outsAt0 m c t.val t.isLt).2.2 i = 0 + ∑ s ∈ Finset.range (t.val % 46 + 1), M1 m c (46 * (t.val / 46) + s) i := by
  have hN : t.val < 92 := lt_of_lt_of_eq t.isLt (show cfg0.N = 92 from N_0)
  refine (congrFun (Value.soutsAt0_1_eq m c t) i).trans ?_
  exact Pipeline.accAt_add_apply (fun n h => Value.scAt0_1 m c n h (VS0_1.read (Elt Ideal) VS0_1.junk)) (Value.scAt0_1 m c)
    (fun _ => 0) (M1 m c) (46 * (t.val / 46)) 45
    (fun h i => first1 m c _ h _ (by omega) i)
    (fun n h acc i hlt hle => step1 m c n h acc (by omega) i)
    (t.val % 46) (by omega) _ i

end Cert.KernelIdeal.Acc

end
-- ==== Proof.KernelFinal.lean ====
/-
  The kernel's result array is the specification of its arguments.

  Only the last point of each row of the grid (`t mod 46 = 45`) stores the result block and has it
  written back, to rows 1024·(t / 46) … of the result array. By then the accumulators hold zero
  plus all 46 block products of the row, that is, over all 46·896 = 41216 padded columns, the
  sum of products of the first (second) input's row with a weight row; the 192 padding columns
  contribute `0 · 0 = 0`, so this is the specification's sum over the 41024 true columns. The
  block stored is the three clipped layers over those sums with the biases and the small weight
  matrices as passed, which is the specification at that row. The two last points cover the
  2048 rows between them.
-/
import proofs.«106080_j74706661146752_1_alg».proof.Proof.KernelAcc

noncomputable section

open scoped BigOperators

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Spec Cert.Lib.BlockSums
open Cert.KernelIdeal.Pieces Cert.KernelIdeal.Payload Cert.KernelIdeal.Blocks Cert.KernelIdeal.Acc

variable (m : (ℓ : Loc nD τ sig) → Buf (Elt Ideal) ℓ) (ρ : Dev nD → PrngReg)

/-- The specification of this program's eight argument arrays as launched. -/
abbrev result (c : Dev nD) : S2048x32.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- All 46 block products of a row of the grid add up to the specification's sum over the true columns (first input). -/
theorem blocks_sum0 (c : Dev nD) (q : ℕ) (p : Fin 1024) (j : Fin 256) (hR : 1024 * q + p.val < 2048) :
    ∑ s ∈ Finset.range 46, M0 m c (46 * q + s) (ix2 p j) = dotRow (m ((c : Thread nD τ).loc main_arg0)) (m ((c : Thread nD τ).loc main_arg2)) ⟨1024 * q + p.val, hR⟩ j := by
  have hM : ∀ s ∈ Finset.range 46, M0 m c (46 * q + s) (ix2 p j)
      = ∑ l : Fin 896, (fun k => X0 m c (1024 * q + p.val) k * XW m c j.val k) (896 * s + l.val) := fun s hs => by
    have hs' : s < 46 := Finset.mem_range.mp hs
    unfold M0
    rw [show (46 * q + s) / 46 = q by omega, show (46 * q + s) % 46 = s by omega]
  rw [Finset.sum_congr rfl hM, sum_blocks 46 896 (fun k => X0 m c (1024 * q + p.val) k * XW m c j.val k),
    sum_pad 41024 (46 * 896) (by norm_num) (fun k => X0 m c (1024 * q + p.val) k * XW m c j.val k) (fun k hk _ => by
      show X0 m c (1024 * q + p.val) k * XW m c j.val k = 0
      unfold X0
      rw [dif_neg (fun hh => absurd hh.2 (by omega)), zero_mul])]
  unfold dotRow
  refine Finset.sum_congr rfl fun k _ => ?_
  show X0 m c (1024 * q + p.val) k.val * XW m c j.val k.val = _
  unfold X0 XW
  rw [dif_pos ⟨hR, k.isLt⟩, dif_pos ⟨j.isLt, k.isLt⟩]

/-- The same for the second input. -/
theorem blocks_sum1 (c : Dev nD) (q : ℕ) (p : Fin 1024) (j : Fin 256) (hR : 1024 * q + p.val < 2048) :
    ∑ s ∈ Finset.range 46, M1 m c (46 * q + s) (ix2 p j) = dotRow (m ((c : Thread nD τ).loc main_arg1)) (m ((c : Thread nD τ).loc main_arg2)) ⟨1024 * q + p.val, hR⟩ j := by
  have hM : ∀ s ∈ Finset.range 46, M1 m c (46 * q + s) (ix2 p j)
      = ∑ l : Fin 896, (fun k => X1 m c (1024 * q + p.val) k * XW m c j.val k) (896 * s + l.val) := fun s hs => by
    have hs' : s < 46 := Finset.mem_range.mp hs
    unfold M1
    rw [show (46 * q + s) / 46 = q by omega, show (46 * q + s) % 46 = s by omega]
  rw [Finset.sum_congr rfl hM, sum_blocks 46 896 (fun k => X1 m c (1024 * q + p.val) k * XW m c j.val k),
    sum_pad 41024 (46 * 896) (by norm_num) (fun k => X1 m c (1024 * q + p.val) k * XW m c j.val k) (fun k hk _ => by
      show X1 m c (1024 * q + p.val) k * XW m c j.val k = 0
      unfold X1
      rw [dif_neg (fun hh => absurd hh.2 (by omega)), zero_mul])]
  unfold dotRow
  refine Finset.sum_congr rfl fun k _ => ?_
  show X1 m c (1024 * q + p.val) k.val * XW m c j.val k.val = _
  unfold X1 XW
  rw [dif_pos ⟨hR, k.isLt⟩, dif_pos ⟨j.isLt, k.isLt⟩]

/-- The third layer respects equality of each of its inputs. -/
theorem layer2_congr {s0 s0' s1 s1' b b' : Fin 256 → EReal} {W1 W1' : Fin 32 → Fin 512 → EReal} {b1 b1' : Fin 32 → EReal}
    {W2 W2' : Fin 32 → Fin 32 → EReal} {b2 b2' : Fin 32 → EReal} (q : Fin 32)
    (e0 : s0 = s0') (e1 : s1 = s1') (e2 : b = b') (e3 : W1 = W1') (e4 : b1 = b1') (e5 : W2 = W2') (e6 : b2 = b2') :
    layer2 s0 s1 b W1 b1 W2 b2 q = layer2 s0' s1' b' W1' b1' W2' b2' q := by
  subst e0 e1 e2 e3 e4 e5 e6; rfl

/-- At the last point of a row of the grid the first accumulator, as just updated, holds the specification's sums. -/
theorem acc0_final (c : Dev nD) (t : Fin cfg0.N) (h0 : ¬t.val % 46 = 0) (h1 : t.val % 46 = 45) (p : Fin 1024) (j : Fin 256)
    (hR : 1024 * (t.val / 46) + p.val < 2048) :
    (k0_pay4 (iblk m c 0 t) (iblk m c 2 t) (outsAt0 m c (t.val - 1) (Nat.lt_of_le_of_lt (Nat.sub_le _ _) t.isLt)).2.1) (ix2 p j) = dotRow (m ((c : Thread nD τ).loc main_arg0)) (m ((c : Thread nD τ).loc main_arg2)) ⟨1024 * (t.val / 46) + p.val, hR⟩ j := by
  have hN : t.val < 92 := lt_of_lt_of_eq t.isLt (show cfg0.N = 92 from N_0)
  have ht : t.val = 46 * (t.val / 46) + 45 := by omega
  refine (upd0_at m c t (outsAt0 m c (t.val - 1) (Nat.lt_of_le_of_lt (Nat.sub_le _ _) t.isLt)).2.1 (ix2 p j)).trans ?_
  rw [acc0_closed m c ⟨t.val - 1, Nat.lt_of_le_of_lt (Nat.sub_le _ _) t.isLt⟩ (ix2 p j)]
  show 0 + ∑ s ∈ Finset.range ((t.val - 1) % 46 + 1), M0 m c (46 * ((t.val - 1) / 46) + s) (ix2 p j) + M0 m c t.val (ix2 p j) = _
  rw [show (t.val - 1) % 46 + 1 = 45 by omega, show (t.val - 1) / 46 = t.val / 46 by omega, zero_add,
    ← blocks_sum0 m c (t.val / 46) p j hR,
    Finset.sum_range_succ (fun s => M0 m c (46 * (t.val / 46) + s) (ix2 p j)) 45]
  exact congrArg (fun n => _ + M0 m c n (ix2 p j)) ht

/-- … and the second accumulator likewise. -/
theorem acc1_final (c : Dev nD) (t : Fin cfg0.N) (h0 : ¬t.val % 46 = 0) (h1 : t.val % 46 = 45) (p : Fin 1024) (j : Fin 256)
    (hR : 1024 * (t.val / 46) + p.val < 2048) :
    (k0_pay5 (iblk m c 1 t) (iblk m c 2 t) (outsAt0 m c (t.val - 1) (Nat.lt_of_le_of_lt (Nat.sub_le _ _) t.isLt)).2.2) (ix2 p j) = dotRow (m ((c : Thread nD τ).loc main_arg1)) (m ((c : Thread nD τ).loc main_arg2)) ⟨1024 * (t.val / 46) + p.val, hR⟩ j := by
  have hN : t.val < 92 := lt_of_lt_of_eq t.isLt (show cfg0.N = 92 from N_0)
  have ht : t.val = 46 * (t.val / 46) + 45 := by omega
  refine (upd1_at m c t (outsAt0 m c (t.val - 1) (Nat.lt_of_le_of_lt (Nat.sub_le _ _) t.isLt)).2.2 (ix2 p j)).trans ?_
  rw [acc1_closed m c ⟨t.val - 1, Nat.lt_of_le_of_lt (Nat.sub_le _ _) t.isLt⟩ (ix2 p j)]
  show 0 + ∑ s ∈ Finset.range ((t.val - 1) % 46 + 1), M1 m c (46 * ((t.val - 1) / 46) + s) (ix2 p j) + M1 m c t.val (ix2 p j) = _
  rw [show (t.val - 1) % 46 + 1 = 45 by omega, show (t.val - 1) / 46 = t.val / 46 by omega, zero_add,
    ← blocks_sum1 m c (t.val / 46) p j hR,
    Finset.sum_range_succ (fun s => M1 m c (46 * (t.val / 46) + s) (ix2 p j)) 45]
  exact congrArg (fun n => _ + M1 m c n (ix2 p j)) ht

/-- What a writing point writes back is its block of the specification. -/
theorem flushed_eq (c : Dev nD) (t : Fin cfg0.N) (hf : (cfg0.win 8).flush t = true) :
    (dats m 0 c).flushed 8 t = ((cfg0.win 8).blk t).view.read (Elt Ideal) (result m c) := by
  have hN : t.val < 92 := lt_of_lt_of_eq t.isLt (show cfg0.N = 92 from N_0)
  have h1 : t.val % 46 = 45 := (flush0_8 t).mp hf
  have h0 : ¬t.val % 46 = 0 := by omega
  obtain ⟨-, -, -, -, -, -, -, -, -, -, -, -, -, -, -, -, o0, o1⟩ := idx_facts t
  refine ((Value.flushed8_C m c t h0 h1).trans (congrArg ((cfg0.win 8).cut (grid0.coords t))
    (out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2))).trans ?_
  funext y
  obtain ⟨p, q, rfl⟩ : ∃ (p : Fin 1024) (q : Fin 32), y = ix2 p q := ⟨y 0, y 1, eq_ix2 y⟩
  have hR : 1024 * (t.val / 46) + p.val < 2048 := by omega
  have hy : ((cfg0.win 8).blk t).view.emb (ix2 p q) = (ix2 (⟨1024 * (t.val / 46) + p.val, hR⟩ : Fin 2048) q : S2048x32.Idx) := by
    funext a; apply Fin.ext
    match a with
    | ⟨0, _⟩ => show win0_8.index t 0 * 1024 + 1 * p.val = 1024 * (t.val / 46) + p.val; rw [o0]; omega
    | ⟨1, _⟩ => show win0_8.index t 1 * 32 + 1 * q.val = q.val; rw [o1]; omega
  rw [View.read_apply, hy]
  refine (tail_apply (k0_pay4 (iblk m c 0 t) (iblk m c 2 t) (outsAt0 m c (t.val - 1) (Nat.lt_of_le_of_lt (Nat.sub_le _ _) t.isLt)).2.1) (iblk m c 3 t) (k0_pay5 (iblk m c 1 t) (iblk m c 2 t) (outsAt0 m c (t.val - 1) (Nat.lt_of_le_of_lt (Nat.sub_le _ _) t.isLt)).2.2) (iblk m c 4 t) (iblk m c 5 t) (iblk m c 6 t) (iblk m c 7 t) p q).trans ?_
  show _ = layer2 (dotRow (m ((c : Thread nD τ).loc main_arg0)) (m ((c : Thread nD τ).loc main_arg2)) ⟨1024 * (t.val / 46) + p.val, hR⟩)
    (dotRow (m ((c : Thread nD τ).loc main_arg1)) (m ((c : Thread nD τ).loc main_arg2)) ⟨1024 * (t.val / 46) + p.val, hR⟩)
    (fun j => (m ((c : Thread nD τ).loc main_arg3)) (ix1 j)) (fun j k => (m ((c : Thread nD τ).loc main_arg4)) (ix2 j k)) (fun j => (m ((c : Thread nD τ).loc main_arg5)) (ix1 j))
    (fun j k => (m ((c : Thread nD τ).loc main_arg6)) (ix2 j k)) (fun j => (m ((c : Thread nD τ).loc main_arg7)) (ix1 j)) q
  exact layer2_congr q
    (funext fun j => acc0_final m c t h0 h1 p j hR)
    (funext fun j => acc1_final m c t h0 h1 p j hR)
    (funext fun j => (congrFun (blk3_eq m c t) (ix2 (0 : Fin 1) j)).trans (bias0_at m c j))
    (funext fun j => funext fun k => (congrFun (blk4_eq m c t) (ix2 j k)).trans (congrFun (V_main_arg4 m c) (ix2 j k)))
    (funext fun j => (congrFun (blk5_eq m c t) (ix2 (0 : Fin 1) j)).trans (bias1_at m c j))
    (funext fun j => funext fun k => (congrFun (blk6_eq m c t) (ix2 j k)).trans (congrFun (V_main_arg6 m c) (ix2 j k)))
    (funext fun j => (congrFun (blk7_eq m c t) (ix2 (0 : Fin 1) j)).trans (bias2_at m c j))

/-- An entry of the result array lies in point `t`'s block iff each coordinate lies in the block's range on its axis. -/
theorem mem_blk (t : Fin cfg0.N) (i : S2048x32.Idx) :
    i ∈ ((cfg0.win 8).blk t).view.set ↔ ∀ a : Fin 2, win0_8.index t a * S1024x32.size a ≤ (i a).val ∧ (i a).val < win0_8.index t a * S1024x32.size a + S1024x32.size a := by
  show i ∈ ((View.whole main_v6).slice (win0_8.rect t)).set ↔ _
  rw [View.set_slice_whole, Rect.mem_set_unit]
  exact Iff.rfl

/-- Every entry of the result array is in the block of the last point of its row of the grid. -/
theorem cover (i : S2048x32.Idx) : ∃ t : Fin cfg0.N, (cfg0.win 8).flush t = true ∧ i ∈ ((cfg0.win 8).blk t).view.set := by
  have hi0 : (i 0).val < 2048 := (i 0).isLt
  have hi1 : (i 1).val < 32 := (i 1).isLt
  have hN : cfg0.N = 92 := N_0
  refine ⟨⟨46 * ((i 0).val / 1024) + 45, by rw [hN]; omega⟩, ?_, ?_⟩
  · exact (flush0_8 _).mpr (by show (46 * ((i 0).val / 1024) + 45) % 46 = 45; omega)
  · obtain ⟨-, -, -, -, -, -, -, -, -, -, -, -, -, -, -, -, o0, o1⟩ := idx_facts (⟨46 * ((i 0).val / 1024) + 45, by rw [hN]; omega⟩ : Fin cfg0.N)
    rw [mem_blk]
    intro a
    match a with
    | ⟨0, _⟩ =>
      show win0_8.index _ 0 * 1024 ≤ (i 0).val ∧ (i 0).val < win0_8.index _ 0 * 1024 + 1024
      rw [o0]; show (46 * ((i 0).val / 1024) + 45) / 46 * 1024 ≤ (i 0).val ∧ (i 0).val < (46 * ((i 0).val / 1024) + 45) / 46 * 1024 + 1024
      omega
    | ⟨1, _⟩ =>
      show win0_8.index _ 1 * 32 ≤ (i 1).val ∧ (i 1).val < win0_8.index _ 1 * 32 + 32
      rw [o1]; omega

/-- The result array after the run is the specification of the arguments. -/
theorem final (c : Dev nD) : (dats m 0 c).arrAt 8 cfg0.N = result m c :=
  (dats m 0 c).arrAt_eq_of_cover 8 (result m c) (flushed_eq m c) cover

/-- The kernel's run: it terminates with the result array at the specification and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Final

end
-- ==== Proof.lean ====
/-
  Both programs compute one function of their eight arguments.

  The reference contracts each 41024-column input row with each row of the first weight matrix,
  adds a bias, clips to the unit interval, joins the two halves, and applies two more small
  affine layers with the same clipping. The kernel pads the wide arrays with zero columns to a
  multiple of 896, walks the columns in 46 blocks while two accumulators collect the partial
  products, and at the last block of each half of the rows applies the same three clipped
  layers. Over the extended reals the block-by-block accumulation is the one long sum
  (addition there is associative and commutative, and the padding columns contribute
  `0 · 0 = 0`), changes of float format are the identity, and clipping each half before
  joining is clipping the joined array. No cancellation or distributivity is used, so the
  finiteness of the inputs is not needed for the equality.

  `Proof/Spec.lean` states the common function; `Proof/RefSide.lean` shows the reference's
  result is that function of its arguments; `Proof/KernelFinal.lean` (over `KernelPieces`,
  `KernelPayload`, `KernelBlocks`, `KernelAcc`) shows the kernel's result array ends holding it.
  The idealization rewrote no operation, so the preservation claim is trivial.
-/
import proofs.«106080_j74706661146752_1_alg».proof.Defs
import proofs.«106080_j74706661146752_1_alg».proof.Proof.Gen.Kernel
import proofs.«106080_j74706661146752_1_alg».proof.Proof.Gen.Kernel.Skeleton
import proofs.«106080_j74706661146752_1_alg».proof.Proof.Gen.Kernel.Launch
import proofs.«106080_j74706661146752_1_alg».proof.Proof.Gen.Kernel.Points
import proofs.«106080_j74706661146752_1_alg».proof.Proof.Gen.Kernel.Frame
import proofs.«106080_j74706661146752_1_alg».proof.Proof.Gen.KernelIdeal
import proofs.«106080_j74706661146752_1_alg».proof.Proof.Gen.KernelIdeal.Skeleton
import proofs.«106080_j74706661146752_1_alg».proof.Proof.Gen.KernelIdeal.Launch
import proofs.«106080_j74706661146752_1_alg».proof.Proof.Gen.KernelIdeal.Points
import proofs.«106080_j74706661146752_1_alg».proof.Proof.Gen.KernelIdeal.Frame
import proofs.«106080_j74706661146752_1_alg».proof.Proof.Gen.ReferenceIdeal
import proofs.«106080_j74706661146752_1_alg».proof.Proof.Gen.KernelIdeal.Value
import proofs.«106080_j74706661146752_1_alg».proof.Proof.Gen.ReferenceIdeal.Run
import proofs.«106080_j74706661146752_1_alg».proof.Proof.Gen.ReferenceIdeal.Read
import proofs.«106080_j74706661146752_1_alg».proof.Proof.Gen.Pre_finite_inputs
import proofs.«106080_j74706661146752_1_alg».proof.Proof.RefSide
import proofs.«106080_j74706661146752_1_alg».proof.Proof.KernelFinal
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the eight arguments the kernel's result array ends at the common function of the
    kernel's arguments and the reference's at the same function of its own, which are the same arrays. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v23_eq, Cert.ReferenceIdeal.RefValue.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
